-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x3 : Shape := ⟨2, ![262144, 3]⟩
abbrev S1x3 : Shape := ⟨2, ![1, 3]⟩
abbrev S3x128 : Shape := ⟨2, ![3, 128]⟩
abbrev S256x256 : Shape := ⟨2, ![256, 256]⟩
abbrev S256 : Shape := ⟨1, ![256]⟩
abbrev S4x256x256 : Shape := ⟨3, ![4, 256, 256]⟩
abbrev S4x256 : Shape := ⟨2, ![4, 256]⟩
abbrev S2x256 : Shape := ⟨2, ![2, 256]⟩
abbrev S2 : Shape := ⟨1, ![2]⟩
abbrev S_ : Shape := ⟨0, ![]⟩

class Facts : Prop where
  bcast_S_S262144x3 : S_.BroadcastsInDim S262144x3 (![] : Fin 0 → Fin S262144x3.rank)
  reducesTo_S262144x3_S_d0_1 : S262144x3.ReducesTo [0, 1] S_
  h_S_ : 0 < S_.numel
  bcast_S_S1x3 : S_.BroadcastsInDim S1x3 (![] : Fin 0 → Fin S1x3.rank)
  reducesTo_S1x3_S_d0_1 : S1x3.ReducesTo [0, 1] S_
  bcast_S_S3x128 : S_.BroadcastsInDim S3x128 (![] : Fin 0 → Fin S3x128.rank)
  reducesTo_S3x128_S_d0_1 : S3x128.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S4x256x256 : S_.BroadcastsInDim S4x256x256 (![] : Fin 0 → Fin S4x256x256.rank)
  reducesTo_S4x256x256_S_d0_1_2 : S4x256x256.ReducesTo [0, 1, 2] S_
  bcast_S_S4x256 : S_.BroadcastsInDim S4x256 (![] : Fin 0 → Fin S4x256.rank)
  reducesTo_S4x256_S_d0_1 : S4x256.ReducesTo [0, 1] S_
  bcast_S_S2x256 : S_.BroadcastsInDim S2x256 (![] : Fin 0 → Fin S2x256.rank)
  reducesTo_S2x256_S_d0_1 : S2x256.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg7 : FVec F S2x256 .f32) (main_arg8 : FVec F S2 .f32) (main_v33 : IVec S_ 1) : IVec S_ 1 :=
  let main_v34 : FVec F S2x256 .f32 := Host.absf main_arg7
  let main_cst_12 : FVec F S_ .f32 := constant S_ .f32 0x7F800000#32
  let main_v35 : FVec F S2x256 .f32 := broadcastInDim S2x256 ![] bcast_S_S2x256 main_cst_12
  let main_v36 : IVec S2x256 1 := cmpf .olt main_v34 main_v35
  let main_c_13 : IVec S_ 1 := constantI S_ 1 1#1
  let main_v37 : IVec S_ 1 := (fun x v => Host.reduce IntOp.andi x v reducesTo_S2x256_S_d0_1 h_S_) main_v36 main_c_13
  let main_v38 : IVec S_ 1 := andi main_v33 main_v37
  let main_v39 : FVec F S2 .f32 := Host.absf main_arg8
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg4 : FVec F S256 .f32) (main_arg5 : FVec F S4x256x256 .f32) (main_arg6 : FVec F S4x256 .f32) (main_arg7 : FVec F S2x256 .f32) (main_arg8 : FVec F S2 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S4x256x256 .f32 := Host.absf main_arg5
  let main_cst_8 : FVec F S_ .f32 := constant S_ .f32 0x7F800000#32
  let main_v25 : FVec F S4x256x256 .f32 := broadcastInDim S4x256x256 ![] bcast_S_S4x256x256 main_cst_8
  let main_v26 : IVec S4x256x256 1 := cmpf .olt main_v24 main_v25
  let main_c_9 : IVec S_ 1 := constantI S_ 1 1#1
  let main_v27 : IVec S_ 1 := (fun x v => Host.reduce IntOp.andi x v reducesTo_S4x256x256_S_d0_1_2 h_S_) main_v26 main_c_9
  let main_v28 : IVec S_ 1 := andi main_v23 main_v27
  let main_v29 : FVec F S4x256 .f32 := Host.absf main_arg6
  let main_cst_10 : FVec F S_ .f32 := constant S_ .f32 0x7F800000#32
  let main_v30 : FVec F S4x256 .f32 := broadcastInDim S4x256 ![] bcast_S_S4x256 main_cst_10
  let main_v31 : IVec S4x256 1 := cmpf .olt main_v29 main_v30
  let main_c_11 : IVec S_ 1 := constantI S_ 1 1#1
  let main_v32 : IVec S_ 1 := (fun x v => Host.reduce IntOp.andi x v reducesTo_S4x256_S_d0_1 h_S_) main_v31 main_c_11
  let main_v33 : IVec S_ 1 := andi main_v28 main_v32
  fn_part2 (F := F) main_arg7 main_arg8 main_v33

def fn {F : FTy → Type} [FloatOps F] (main_arg0 : FVec F S262144x3 .f32) (main_arg1 : FVec F S1x3 .f32) (main_arg2 : FVec F S3x128 .f32) (main_arg3 : FVec F S256x256 .f32) (main_arg4 : FVec F S256 .f32) (main_arg5 : FVec F S4x256x256 .f32) (main_arg6 : FVec F S4x256 .f32) (main_arg7 : FVec F S2x256 .f32) (main_arg8 : FVec F S2 .f32) : IVec S_ 1 :=
  let main_v0 : FVec F S262144x3 .f32 := Host.absf main_arg0
  let main_cst : FVec F S_ .f32 := constant S_ .f32 0x7F800000#32
  let main_v1 : FVec F S262144x3 .f32 := broadcastInDim S262144x3 ![] bcast_S_S262144x3 main_cst
  let main_v2 : IVec S262144x3 1 := cmpf .olt main_v0 main_v1
  let main_c : IVec S_ 1 := constantI S_ 1 1#1
  let main_v3 : IVec S_ 1 := (fun x v => Host.reduce IntOp.andi x v reducesTo_S262144x3_S_d0_1 h_S_) main_v2 main_c
  let main_v4 : FVec F S1x3 .f32 := Host.absf main_arg1
  let main_cst_0 : FVec F S_ .f32 := constant S_ .f32 0x7F800000#32
  let main_v5 : FVec F S1x3 .f32 := broadcastInDim S1x3 ![] bcast_S_S1x3 main_cst_0
  let main_v6 : IVec S1x3 1 := cmpf .olt main_v4 main_v5
  let main_c_1 : IVec S_ 1 := constantI S_ 1 1#1
  let main_v7 : IVec S_ 1 := (fun x v => Host.reduce IntOp.andi x v reducesTo_S1x3_S_d0_1 h_S_) main_v6 main_c_1
  let main_v8 : IVec S_ 1 := andi main_v3 main_v7
  let main_v9 : FVec F S3x128 .f32 := Host.absf main_arg2
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_v13 main_v16
-- ==== Kernel.lean ====
abbrev S262144x3 : Shape := ⟨2, ![262144, 3]⟩
abbrev S1x3 : Shape := ⟨2, ![1, 3]⟩
abbrev S3x128 : Shape := ⟨2, ![3, 128]⟩
abbrev S256x256 : Shape := ⟨2, ![256, 256]⟩
abbrev S256 : Shape := ⟨1, ![256]⟩
abbrev S4x256x256 : Shape := ⟨3, ![4, 256, 256]⟩
abbrev S4x256 : Shape := ⟨2, ![4, 256]⟩
abbrev S2x256 : Shape := ⟨2, ![2, 256]⟩
abbrev S2 : Shape := ⟨1, ![2]⟩
abbrev S256x2 : Shape := ⟨2, ![256, 2]⟩
abbrev S1x256 : Shape := ⟨2, ![1, 256]⟩
abbrev S1x2 : Shape := ⟨2, ![1, 2]⟩
abbrev S262144x2 : Shape := ⟨2, ![262144, 2]⟩
abbrev S2048x3 : Shape := ⟨2, ![2048, 3]⟩
abbrev S2048x2 : Shape := ⟨2, ![2048, 2]⟩
abbrev S2048x128 : Shape := ⟨2, ![2048, 128]⟩
abbrev S2048x256 : Shape := ⟨2, ![2048, 256]⟩
abbrev S1x256x256 : Shape := ⟨3, ![1, 256, 256]⟩

abbrev nBuf : Space → Nat
  | .hbm => 18
  | .vmem => 12
  | .smem => 0
  | _ => 0

abbrev bufTy : (tb : Table) → Fin (tcTables nBuf tb) → BufTy
  | .hbm, ⟨0, _⟩ => ⟨S262144x3, .f32⟩
  | .hbm, ⟨1, _⟩ => ⟨S1x3, .f32⟩
  | .hbm, ⟨2, _⟩ => ⟨S3x128, .f32⟩
  | .hbm, ⟨3, _⟩ => ⟨S256x256, .f32⟩
  | .hbm, ⟨4, _⟩ => ⟨S256, .f32⟩
  | .hbm, ⟨5, _⟩ => ⟨S4x256x256, .f32⟩
  | .hbm, ⟨6, _⟩ => ⟨S4x256, .f32⟩
  | .hbm, ⟨7, _⟩ => ⟨S2x256, .f32⟩
  | .hbm, ⟨8, _⟩ => ⟨S2, .f32⟩
  | .hbm, ⟨9, _⟩ => ⟨S256x256, .f32⟩
  | .hbm, ⟨10, _⟩ => ⟨S256x256, .bf16⟩
  | .hbm, ⟨11, _⟩ => ⟨S4x256x256, .f32⟩
  | .hbm, ⟨12, _⟩ => ⟨S4x256x256, .bf16⟩
  | .hbm, ⟨13, _⟩ => ⟨S256x2, .f32⟩
  | .hbm, ⟨14, _⟩ => ⟨S256x2, .bf16⟩
  | .hbm, ⟨15, _⟩ => ⟨S1x256, .f32⟩
  | .hbm, ⟨16, _⟩ => ⟨S1x2, .f32⟩
  | .hbm, ⟨17, _⟩ => ⟨S262144x2, .f32⟩
  | .local _ .vmem, ⟨0, _⟩ => ⟨S2048x3, .f32⟩
  | .local _ .vmem, ⟨1, _⟩ => ⟨S2048x3, .f32⟩
  | .local _ .vmem, ⟨2, _⟩ => ⟨S1x3, .f32⟩
  | .local _ .vmem, ⟨3, _⟩ => ⟨S3x128, .f32⟩
  | .local _ .vmem, ⟨4, _⟩ => ⟨S256x256, .bf16⟩
  | .local _ .vmem, ⟨5, _⟩ => ⟨S1x256, .f32⟩
  | .local _ .vmem, ⟨6, _⟩ => ⟨S4x256x256, .bf16⟩
  | .local _ .vmem, ⟨7, _⟩ => ⟨S4x256, .f32⟩
  | .local _ .vmem, ⟨8, _⟩ => ⟨S256x2, .bf16⟩
  | .local _ .vmem, ⟨9, _⟩ => ⟨S1x2, .f32⟩
  | .local _ .vmem, ⟨10, _⟩ => ⟨S2048x2, .f32⟩
  | .local _ .vmem, ⟨11, _⟩ => ⟨S2048x2, .f32⟩
  | _, _ => ⟨S262144x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x2 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x2 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S256x256_S256x256_1_0 : S256x256.Transposes [1, 0] S256x256
  bitsLt_bf16_f32 : FTy.bits .bf16 < FTy.bits .f32
  transposes_S4x256x256_S4x256x256_0_2_1 : S4x256x256.Transposes [0, 2, 1] S4x256x256
  transposes_S2x256_S256x2_1_0 : S2x256.Transposes [1, 0] S256x2
  shapeCasts_S256_S1x256 : S256.ShapeCasts S1x256
  shapeCasts_S2_S1x2 : S2.ShapeCasts S1x2
  inb_S2048x3_S2048x3_0_0 : ∀ a, (![0, 0] : Fin 2 → Nat) a + S2048x3.size a ≤ S2048x3.size a
  h_S2048x3 : 0 < S2048x3.numel
  inb_S1x3_S1x3_0_0 : ∀ a, (![0, 0] : Fin 2 → Nat) a + S1x3.size a ≤ S1x3.size a
  h_S1x3 : 0 < S1x3.numel
  broadcasts_S1x3_S2048x3 : S1x3.Broadcasts S2048x3
  inb_S3x128_S3x128_0_0 : ∀ a, (![0, 0] : Fin 2 → Nat) a + S3x128.size a ≤ S3x128.size a
  h_S3x128 : 0 < S3x128.numel
  concatenates_S2048x128_S2048x128_S2048x256_d1 : Shape.Concatenates [S2048x128, S2048x128] S2048x256 1
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S4x256x256_S4x256x256_0_0_0 : ∀ a, (![0, 0, 0] : Fin 3 → Nat) a + S4x256x256.size a ≤ S4x256x256.size a
  h_S4x256x256 : 0 < S4x256x256.numel
  shapeCasts_S4x256x256_S4x256x256 : S4x256x256.ShapeCasts S4x256x256
  inb_S4x256_S4x256_0_0 : ∀ a, (![0, 0] : Fin 2 → Nat) a + S4x256.size a ≤ S4x256.size a
  h_S4x256 : 0 < S4x256.numel
  slices_S4x256x256_o0_0_0_S1x256x256 : S4x256x256.Slices ![0, 0, 0] S1x256x256
  shapeCasts_S1x256x256_S256x256 : S1x256x256.ShapeCasts S256x256
  slices_S4x256_o0_0_S1x256 : S4x256.Slices ![0, 0] S1x256
  shapeCasts_S1x256_S256 : S1x256.ShapeCasts S256
  slices_S4x256x256_o1_0_0_S1x256x256 : S4x256x256.Slices ![1, 0, 0] S1x256x256
  slices_S4x256_o1_0_S1x256 : S4x256.Slices ![1, 0] S1x256
  slices_S4x256x256_o2_0_0_S1x256x256 : S4x256x256.Slices ![2, 0, 0] S1x256x256
  slices_S4x256_o2_0_S1x256 : S4x256.Slices ![2, 0] S1x256
  slices_S4x256x256_o3_0_0_S1x256x256 : S4x256x256.Slices ![3, 0, 0] S1x256x256
  slices_S4x256_o3_0_S1x256 : S4x256.Slices ![3, 0] S1x256
  inb_S256x2_S256x2_0_0 : ∀ a, (![0, 0] : Fin 2 → Nat) a + S256x2.size a ≤ S256x2.size a
  h_S256x2 : 0 < S256x2.numel
  shapeCasts_S256x2_S256x2 : S256x2.ShapeCasts S256x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2048x2 : S1x2.Broadcasts S2048x2
  inb_S2048x2_S2048x2_0_0 : ∀ a, (![0, 0] : Fin 2 → Nat) a + S2048x2.size a ≤ S2048x2.size a
  h_S2048x2 : 0 < S2048x2.numel
  dot_S2048x3_S3x128_S2048x128_1_0_0_1_n_n_wf : DotDims.WF S2048x3 S3x128 S2048x128 [1] [0] [0] [1] [] []
  dot_S2048x256_S256x256_S2048x256_1_0_0_1_n_n_wf : DotDims.WF S2048x256 S256x256 S2048x256 [1] [0] [0] [1] [] []
  dot_S2048x256_S256x2_S2048x2_1_0_0_1_n_n_wf : DotDims.WF S2048x256 S256x2 S2048x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x3.size a ≤ S262144x3.size a
  hwx0_0 : ∀ i : grid0.Coords, EltTy.bits .f32 = 32 ∨ (Rect.block (s := S262144x3) S2048x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x3.size a ≤ S1x3.size a
  hwx0_1 : ∀ i : grid0.Coords, EltTy.bits .f32 = 32 ∨ (Rect.block (s := S1x3) S1x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x128.size a ≤ S3x128.size a
  hwx0_2 : ∀ i : grid0.Coords, EltTy.bits .f32 = 32 ∨ (Rect.block (s := S3x128) S3x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x256x256.size a ≤ S4x256x256.size a
  hwx0_5 : ∀ i : grid0.Coords, EltTy.bits .bf16 = 32 ∨ (Rect.block (s := S4x256x256) S4x256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x256.size a ≤ S4x256.size a
  hwx0_6 : ∀ i : grid0.Coords, EltTy.bits .f32 = 32 ∨ (Rect.block (s := S4x256) S4x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x2.size a ≤ S256x2.size a
  hwx0_7 : ∀ i : grid0.Coords, EltTy.bits .bf16 = 32 ∨ (Rect.block (s := S256x2) S256x2.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2.size a ≤ S1x2.size a
  hwx0_8 : ∀ i : grid0.Coords, EltTy.bits .f32 = 32 ∨ (Rect.block (s := S1x2) S1x2.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x2.size a ≤ S262144x2.size a
  hwx0_9 : ∀ i : grid0.Coords, EltTy.bits .f32 = 32 ∨ (Rect.block (s := S262144x2) S2048x2.size (cc0_transform_9 i) (hinb0_9 i)).WholeWords (EltTy.packing .f32)

variable [Facts₀]

def dot_S2048x3_S3x128_S2048x128_1_0_0_1_n_n : DotDims S2048x3 S3x128 S2048x128 where
  lhsContracting := [1]
  rhsContracting := [0]
  lhsNonContracting := [0]
  rhsNonContracting := [1]
  lhsBatch := []
  rhsBatch := []
  wf := dot_S2048x3_S3x128_S2048x128_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x2_S2048x2_1_0_0_1_n_n : DotDims S2048x256 S256x2 S2048x2 where
  lhsContracting := [1]
  rhsContracting := [0]
  lhsNonContracting := [0]
  rhsNonContracting := [1]
  lhsBatch := []
  rhsBatch := []
  wf := dot_S2048x256_S256x2_S2048x2_1_0_0_1_n_n_wf

abbrev win0_0 : Pipeline.Window sig grid0 :=
  Pipeline.Window.ofSpec (Memref.whole main_arg0) S2048x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S4x256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S4x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S256x2.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1x2.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S2048x2.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S262144x3 : Shape := ⟨2, ![262144, 3]⟩
abbrev S1x3 : Shape := ⟨2, ![1, 3]⟩
abbrev S3x128 : Shape := ⟨2, ![3, 128]⟩
abbrev S256x256 : Shape := ⟨2, ![256, 256]⟩
abbrev S256 : Shape := ⟨1, ![256]⟩
abbrev S4x256x256 : Shape := ⟨3, ![4, 256, 256]⟩
abbrev S4x256 : Shape := ⟨2, ![4, 256]⟩
abbrev S2x256 : Shape := ⟨2, ![2, 256]⟩
abbrev S2 : Shape := ⟨1, ![2]⟩
abbrev S262144x128 : Shape := ⟨2, ![262144, 128]⟩
abbrev S262144x256 : Shape := ⟨2, ![262144, 256]⟩
abbrev S_ : Shape := ⟨0, ![]⟩
abbrev S1x256 : Shape := ⟨2, ![1, 256]⟩
abbrev S1x256x256 : Shape := ⟨3, ![1, 256, 256]⟩
abbrev S256x2 : Shape := ⟨2, ![256, 2]⟩
abbrev S262144x2 : Shape := ⟨2, ![262144, 2]⟩
abbrev S1x2 : Shape := ⟨2, ![1, 2]⟩

abbrev nBuf : Space → Nat
  | .hbm => 72
  | .vmem => 0
  | .smem => 0
  | _ => 0

abbrev bufTy : (tb : Table) → Fin (tcTables nBuf tb) → BufTy
  | .hbm, ⟨0, _⟩ => ⟨S262144x3, .f32⟩
  | .hbm, ⟨1, _⟩ => ⟨S1x3, .f32⟩
  | .hbm, ⟨2, _⟩ => ⟨S3x128, .f32⟩
  | .hbm, ⟨3, _⟩ => ⟨S256x256, .f32⟩
  | .hbm, ⟨4, _⟩ => ⟨S256, .f32⟩
  | .hbm, ⟨5, _⟩ => ⟨S4x256x256, .f32⟩
  | .hbm, ⟨6, _⟩ => ⟨S4x256, .f32⟩
  | .hbm, ⟨7, _⟩ => ⟨S2x256, .f32⟩
  | .hbm, ⟨8, _⟩ => ⟨S2, .f32⟩
  | .hbm, ⟨9, _⟩ => ⟨S262144x3, .f32⟩
  | .hbm, ⟨10, _⟩ => ⟨S262144x3, .f32⟩
  | .hbm, ⟨11, _⟩ => ⟨S262144x128, .f32⟩
  | .hbm, ⟨12, _⟩ => ⟨S262144x128, .f32⟩
  | .hbm, ⟨13, _⟩ => ⟨S262144x128, .f32⟩
  | .hbm, ⟨14, _⟩ => ⟨S262144x256, .f32⟩
  | .hbm, ⟨15, _⟩ => ⟨S_, .f32⟩
  | .hbm, ⟨16, _⟩ => ⟨S262144x256, .f32⟩
  | .hbm, ⟨17, _⟩ => ⟨S262144x256, .f32⟩
  | .hbm, ⟨18, _⟩ => ⟨S256x256, .f32⟩
  | .hbm, ⟨19, _⟩ => ⟨S262144x256, .f32⟩
  | .hbm, ⟨20, _⟩ => ⟨S1x256, .f32⟩
  | .hbm, ⟨21, _⟩ => ⟨S262144x256, .f32⟩
  | .hbm, ⟨22, _⟩ => ⟨S262144x256, .f32⟩
  | .hbm, ⟨23, _⟩ => ⟨S_, .f32⟩
  | .hbm, ⟨24, _⟩ => ⟨S262144x256, .f32⟩
  | .hbm, ⟨25, _⟩ => ⟨S262144x256, .f32⟩
  | .hbm, ⟨26, _⟩ => ⟨S262144x256, .f32⟩
  | .hbm, ⟨27, _⟩ => ⟨S1x256x256, .f32⟩
  | .hbm, ⟨28, _⟩ => ⟨S256x256, .f32⟩
  | .hbm, ⟨29, _⟩ => ⟨S256x256, .f32⟩
  | .hbm, ⟨30, _⟩ => ⟨S262144x256, .f32⟩
  | .hbm, ⟨31, _⟩ => ⟨S1x256, .f32⟩
  | .hbm, ⟨32, _⟩ => ⟨S256, .f32⟩
  | .hbm, ⟨33, _⟩ => ⟨S1x256, .f32⟩
  | .hbm, ⟨34, _⟩ => ⟨S262144x256, .f32⟩
  | .hbm, ⟨35, _⟩ => ⟨S262144x256, .f32⟩
  | .hbm, ⟨36, _⟩ => ⟨S262144x256, .f32⟩
  | .hbm, ⟨37, _⟩ => ⟨S1x256x256, .f32⟩
  | .hbm, ⟨38, _⟩ => ⟨S256x256, .f32⟩
  | .hbm, ⟨39, _⟩ => ⟨S256x256, .f32⟩
  | .hbm, ⟨40, _⟩ => ⟨S262144x256, .f32⟩
  | .hbm, ⟨41, _⟩ => ⟨S1x256, .f32⟩
  | .hbm, ⟨42, _⟩ => ⟨S256, .f32⟩
  | .hbm, ⟨43, _⟩ => ⟨S1x256, .f32⟩
  | .hbm, ⟨44, _⟩ => ⟨S262144x256, .f32⟩
  | .hbm, ⟨45, _⟩ => ⟨S262144x256, .f32⟩
  | .hbm, ⟨46, _⟩ => ⟨S262144x256, .f32⟩
  | .hbm, ⟨47, _⟩ => ⟨S1x256x256, .f32⟩
  | .hbm, ⟨48, _⟩ => ⟨S256x256, .f32⟩
  | .hbm, ⟨49, _⟩ => ⟨S256x256, .f32⟩
  | .hbm, ⟨50, _⟩ => ⟨S262144x256, .f32⟩
  | .hbm, ⟨51, _⟩ => ⟨S1x256, .f32⟩
  | .hbm, ⟨52, _⟩ => ⟨S256, .f32⟩
  | .hbm, ⟨53, _⟩ => ⟨S1x256, .f32⟩
  | .hbm, ⟨54, _⟩ => ⟨S262144x256, .f32⟩
  | .hbm, ⟨55, _⟩ => ⟨S262144x256, .f32⟩
  | .hbm, ⟨56, _⟩ => ⟨S262144x256, .f32⟩
  | .hbm, ⟨57, _⟩ => ⟨S1x256x256, .f32⟩
  | .hbm, ⟨58, _⟩ => ⟨S256x256, .f32⟩
  | .hbm, ⟨59, _⟩ => ⟨S256x256, .f32⟩
  | .hbm, ⟨60, _⟩ => ⟨S262144x256, .f32⟩
  | .hbm, ⟨61, _⟩ => ⟨S1x256, .f32⟩
  | .hbm, ⟨62, _⟩ => ⟨S256, .f32⟩
  | .hbm, ⟨63, _⟩ => ⟨S1x256, .f32⟩
  | .hbm, ⟨64, _⟩ => ⟨S262144x256, .f32⟩
  | .hbm, ⟨65, _⟩ => ⟨S262144x256, .f32⟩
  | .hbm, ⟨66, _⟩ => ⟨S262144x256, .f32⟩
  | .hbm, ⟨67, _⟩ => ⟨S256x2, .f32⟩
  | .hbm, ⟨68, _⟩ => ⟨S262144x2, .f32⟩
  | .hbm, ⟨69, _⟩ => ⟨S1x2, .f32⟩
  | .hbm, ⟨70, _⟩ => ⟨S262144x2, .f32⟩
  | .hbm, ⟨71, _⟩ => ⟨S262144x2, .f32⟩
  | _, _ => ⟨S262144x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩

abbrev nD : Nat := 1
abbrev τ : Topo := Topo.v7x

variable {F : FTy → Type} [FloatOps F]

class Facts₀ : Prop where
  bcast_S1x3_S262144x3_0_1 : S1x3.BroadcastsInDim S262144x3 (![0, 1] : Fin 2 → Fin S262144x3.rank)
  concatenates_S262144x128_S262144x128_S262144x256_d1 : Shape.Concatenates [S262144x128, S262144x128] S262144x256 1
  bcast_S_S262144x256 : S_.BroadcastsInDim S262144x256 (![] : Fin 0 → Fin S262144x256.rank)
  transposes_S256x256_S256x256_1_0 : S256x256.Transposes [1, 0] S256x256
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  slices_S4x256x256_S1x256x256_0_0_0 : S4x256x256.Slices ![0, 0, 0] S1x256x256
  shapeCasts_S1x256x256_S256x256 : S1x256x256.ShapeCasts S256x256
  slices_S4x256_S1x256_0_0 : S4x256.Slices ![0, 0] S1x256
  shapeCasts_S1x256_S256 : S1x256.ShapeCasts S256
  slices_S4x256x256_S1x256x256_1_0_0 : S4x256x256.Slices ![1, 0, 0] S1x256x256
  slices_S4x256_S1x256_1_0 : S4x256.Slices ![1, 0] S1x256
  slices_S4x256x256_S1x256x256_2_0_0 : S4x256x256.Slices ![2, 0, 0] S1x256x256
  slices_S4x256_S1x256_2_0 : S4x256.Slices ![2, 0] S1x256
  slices_S4x256x256_S1x256x256_3_0_0 : S4x256x256.Slices ![3, 0, 0] S1x256x256
  slices_S4x256_S1x256_3_0 : S4x256.Slices ![3, 0] S1x256
  transposes_S2x256_S256x2_1_0 : S2x256.Transposes [1, 0] S256x2
  bcast_S2_S1x2_1 : S2.BroadcastsInDim S1x2 (![1] : Fin 1 → Fin S1x2.rank)
  bcast_S1x2_S262144x2_0_1 : S1x2.BroadcastsInDim S262144x2 (![0, 1] : Fin 2 → Fin S262144x2.rank)
  dot_S262144x3_S3x128_S262144x128_1_0_0_1_n_n_wf : DotDims.WF S262144x3 S3x128 S262144x128 [1] [0] [0] [1] [] []
  dot_S262144x256_S256x256_S262144x256_1_0_0_1_n_n_wf : DotDims.WF S262144x256 S256x256 S262144x256 [1] [0] [0] [1] [] []
  dot_S262144x256_S256x2_S262144x2_1_0_0_1_n_n_wf : DotDims.WF S262144x256 S256x2 S262144x2 [1] [0] [0] [1] [] []

variable [Facts₀]

def dot_S262144x3_S3x128_S262144x128_1_0_0_1_n_n : DotDims S262144x3 S3x128 S262144x128 where
  lhsContracting := [1]
  rhsContracting := [0]
  lhsNonContracting := [0]
  rhsNonContracting := [1]
  lhsBatch := []
  rhsBatch := []
  wf := dot_S262144x3_S3x128_S262144x128_1_0_0_1_n_n_wf
def dot_S262144x256_S256x256_S262144x256_1_0_0_1_n_n : DotDims S262144x256 S256x256 S262144x256 where
  lhsContracting := [1]
  rhsContracting := [0]
  lhsNonContracting := [0]
  rhsNonContracting := [1]
  lhsBatch := []
  rhsBatch := []
  wf := dot_S262144x256_S256x256_S262144x256_1_0_0_1_n_n_wf
def dot_S262144x256_S256x2_S262144x2_1_0_0_1_n_n : DotDims S262144x256 S256x2 S262144x2 where
  lhsContracting := [1]
  rhsContracting := [0]
  lhsNonContracting := [0]
  rhsNonContracting := [1]
  lhsBatch := []
  rhsBatch := []
  wf := dot_S262144x256_S256x2_S262144x2_1_0_0_1_n_n_wf

class Facts : Prop extends Facts₀ where

variable [Facts]
-- ==== Proof.LibDot.lean ====
/- A general lemma for reading a plain matrix product on the host at an index, at the ideal values: rows by columns,
   the sum over the one contracted coordinate. -/
import Idealize.ShloMosaic.PureOps.Ideal.Laws
import Idealize.ShloMosaic.Lib.ValueIdx

open scoped BigOperators

namespace Cert.LibDot

open Idealize.ShloMosaic Idealize.ShloMosaic.ValueIdx

/-- `dot_general` of `[M, K]` by `[K, N]` (contracting the left operand's axis 1 with the right one's axis 0) at `(r, c)`:
    the sum over `d` of `l[r, d] * w[d, c]`. -/
theorem dotGeneral_plain_apply {M K N : Nat} {φ₁ φ₂ : FTy} (prec : Option ContractPrecision) (sched : HostSchedule)
    (l : FVec Ideal ⟨2, ![M, K]⟩ φ₁) (w : FVec Ideal ⟨2, ![K, N]⟩ φ₂) (r : Fin M) (c : Fin N) :
    FloatOps.dotGeneral (DotDims.plain M K N) prec sched l w (ix2 r c) = ∑ d : Fin K, l (ix2 r d) * w (ix2 d c) := by
  rw [Ideal.dotGeneral_apply]
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun d _ => ?_
  congr 1
  · refine congrArg l (funext fun a => Fin.ext ?_)
    match a with
    | ⟨0, _⟩ => rfl
    | ⟨1, _⟩ => exact contrEquiv1_symm_val (DotDims.plain M K N) K hr hs d
  · refine congrArg w (funext fun a => Fin.ext ?_)
    match a with
    | ⟨0, _⟩ => exact contrEquiv1_symm_val (DotDims.plain M K N) K hr hs d
    | ⟨1, _⟩ => rfl

end Cert.LibDot
-- ==== Proof.LibMatmulRead.lean ====
/-
  Matrix products read at an index, at the ideal values.

  A two-axis array is a function of its index; `mm A B` is the matrix product written as the explicit sum over the
  contracted coordinate. A `tpu.matmul` of plain dimension numbers (rows by contraction, contraction by columns) into a
  zero accumulator, and the host's `dot_general` of the same dimension numbers, are both `mm` of their operands: no
  rounding, no chunk order, no accumulator is left at the ideal values.
-/
import Idealize.ShloMosaic.PureOps.Ideal.Laws
import Idealize.ShloMosaic.Lib.ValueIdx
import proofs.«147997_j8650064134364_2_alg».proof.Proof.LibDot

open scoped BigOperators

noncomputable section

namespace Cert.GCN

open Idealize.ShloMosaic Idealize.ShloMosaic.ValueIdx

/-- A two-axis array of extended reals. -/
abbrev Arr (n k : Nat) := (⟨2, ![n, k]⟩ : Shape).Idx → EReal

/-- The matrix product as explicit sums over the contracted coordinate. -/
def mm {n k p : Nat} (A : Arr n k) (B : Arr k p) : Arr n p := fun i => ∑ d : Fin k, A (ix2 (i 0) d) * B (ix2 d (i 1))

theorem mm_apply {n k p : Nat} (A : Arr n k) (B : Arr k p) (r : Fin n) (c : Fin p) :
    mm A B (ix2 r c) = ∑ d : Fin k, A (ix2 r d) * B (ix2 d c) := rfl

/-- A plain `tpu.matmul` into the zero accumulator at `(r, c)`: the sum over `d` of `l[r, d] * w[d, c]`. -/
theorem matmul_plain_zero_apply {M K N : Nat} {φ₁ φ₂ : FTy} (prec : Option ContractPrecision)
    (l : FVec Ideal ⟨2, ![M, K]⟩ φ₁) (w : FVec Ideal ⟨2, ![K, N]⟩ φ₂) (r : Fin M) (c : Fin N) :
    FloatOps.matmul (DotDims.plain M K N) prec l w (constant ⟨2, ![M, N]⟩ .f32 0x00000000#32) (ix2 r c) = ∑ d : Fin K, l (ix2 r d) * w (ix2 d c) := by
  rw [Ideal.matmul_constant_zero_apply]
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun d _ => ?_
  congr 1
  · refine congrArg l (funext fun a => Fin.ext ?_)
    match a with
    | ⟨0, _⟩ => rfl
    | ⟨1, _⟩ => exact contrEquiv1_symm_val (DotDims.plain M K N) K hr hs d
  · refine congrArg w (funext fun a => Fin.ext ?_)
    match a with
    | ⟨0, _⟩ => exact contrEquiv1_symm_val (DotDims.plain M K N) K hr hs d
    | ⟨1, _⟩ => rfl

/-- The host's plain `dot_general` is `mm` of its operands, as whole arrays. -/
theorem hostDot_eq_mm {M K N : Nat} {φ₁ φ₂ : FTy} (prec : Option ContractPrecision) (sched : HostSchedule)
    (l : FVec Ideal ⟨2, ![M, K]⟩ φ₁) (w : FVec Ideal ⟨2, ![K, N]⟩ φ₂) :
    (FloatOps.dotGeneral (DotDims.plain M K N) prec sched l w : Arr M N) = mm l w := by
  funext i
  rw [eq_ix2 i]
  exact Cert.LibDot.dotGeneral_plain_apply prec sched l w (i 0) (i 1)

end Cert.GCN

end
-- ==== Proof.LibRowwise.lean ====
/-
  Arrays of two axes read ROW BY ROW, at the ideal values.

  A dense layer acts on each row of its input alone: entry (r, j) of the result depends on row r of the input and on
  the weights, never on another row. So a value that a chain of such operations computes is known once each row of the
  result is named as a function of the same row of the input. `RowsAre a f` says that entry (r, j) of the array `a` is
  `f r j`; the lemmas carry it through the operations a feed-forward network is made of: the elementwise sine and
  cosine, a change of float format (the identity on extended reals), a product with a splat scalar on either side, a
  join of two arrays along the columns, and a plain matrix product into a zero accumulator followed by the addition
  of a bias — which is the affine map `lin` of the row.
-/
import Idealize.ShloMosaic.PureOps.Ideal.Laws
import Idealize.ShloMosaic.Lib.ValueIdx
import Idealize.ShloMosaic.Lib.Pipeline.Value
import proofs.«147997_j8650064134364_2_alg».proof.Proof.LibMatmulRead

open scoped BigOperators

noncomputable section

namespace Cert.Rowwise

open Idealize.ShloMosaic Idealize.ShloMosaic.ValueIdx

/-- The affine map of one row: entry `j` is the sum over `k` of `h k * W j k`, plus `b j`. The weight is indexed
    (output, input), as a layer `h ↦ h · Wᵀ + b` stores it. -/
def lin {K N : Nat} (h : Fin K → EReal) (W : Fin N → Fin K → EReal) (b : Fin N → EReal) : Fin N → EReal :=
  fun j => (∑ k : Fin K, h k * W j k) + b j

/-- Entry (r, j) of `a` is `f r j`. -/
def RowsAre {M N : Nat} {φ : FTy} (a : FVec Ideal ⟨2, ![M, N]⟩ φ) (f : Fin M → Fin N → EReal) : Prop :=
  ∀ (r : Fin M) (j : Fin N), a (ix2 r j) = f r j

section
variable {M N : Nat} {φ : FTy}

/-- The elementwise sine of an array is the sine of each entry. -/
theorem rows_sin {a : FVec Ideal ⟨2, ![M, N]⟩ φ} {f : Fin M → Fin N → EReal} (h : RowsAre a f) :
    RowsAre (sin a) (fun r j => Ideal.sin (f r j)) :=
  fun r j => congrArg Ideal.sin (h r j)

/-- The elementwise cosine of an array is the cosine of each entry. -/
theorem rows_cos {a : FVec Ideal ⟨2, ![M, N]⟩ φ} {f : Fin M → Fin N → EReal} (h : RowsAre a f) :
    RowsAre (cos a) (fun r j => Ideal.cos (f r j)) :=
  fun r j => congrArg Ideal.cos (h r j)

/-- A narrowing of the float format changes no extended real. -/
theorem rows_truncf {ψ : FTy} {a : FVec Ideal ⟨2, ![M, N]⟩ φ} {f : Fin M → Fin N → EReal} (hlt : ψ.bits < φ.bits)
    (h : RowsAre a f) : RowsAre (truncf ψ a hlt) f :=
  fun r j => h r j

/-- A product with a splat scalar on the right multiplies each entry by it. -/
theorem rows_mul_splat_right {a : FVec Ideal ⟨2, ![M, N]⟩ φ} {f : Fin M → Fin N → EReal} (c : Ideal φ) (h : RowsAre a f) :
    RowsAre (mulf a (broadcast ⟨2, ![M, N]⟩ c)) (fun r j => f r j * c) :=
  fun r j => congrArg (· * c) (h r j)

/-- A product with a splat scalar on the left multiplies each entry by it. -/
theorem rows_mul_splat_left {a : FVec Ideal ⟨2, ![M, N]⟩ φ} {f : Fin M → Fin N → EReal} (c : Ideal φ) (h : RowsAre a f) :
    RowsAre (mulf (broadcast ⟨2, ![M, N]⟩ c) a) (fun r j => c * f r j) :=
  fun r j => congrArg (c * ·) (h r j)

/-- An elementwise product of two arrays multiplies entry by entry. -/
theorem rows_mul {a b : FVec Ideal ⟨2, ![M, N]⟩ φ} {f g : Fin M → Fin N → EReal} (ha : RowsAre a f) (hb : RowsAre b g) :
    RowsAre (mulf a b) (fun r j => f r j * g r j) :=
  fun r j => by show a (ix2 r j) * b (ix2 r j) = _; rw [ha r j, hb r j]

end

/-- One row `[1, N]` broadcast over `M` rows reads, at (r, j), the row at column `j`. -/
theorem broadcastTo_row {α : Type} {M N : Nat} (b : (⟨2, ![1, N]⟩ : Shape).Idx → α)
    (hb : (⟨2, ![1, N]⟩ : Shape).Broadcasts ⟨2, ![M, N]⟩) (r : Fin M) (j : Fin N) :
    broadcastTo ⟨2, ![M, N]⟩ b hb (ix2 r j) = b (ix2 0 j) := by
  refine broadcastTo_apply b hb (ix2 r j) (ix2 0 j) (fun a => ?_)
  match a with
  | ⟨0, _⟩ => show 0 = if (1 : Nat) = 1 then 0 else _; rw [if_pos rfl]
  | ⟨1, _⟩ =>
    show j.val = if N = 1 then 0 else j.val
    by_cases hN : N = 1
    · rw [if_pos hN]; have := j.isLt; omega
    · rw [if_neg hN]

/-- A plain matrix product of `[M, K]` by `[K, N]` into the zero accumulator, plus an array `bb` whose every row is
    the bias `bt`: row `r` of the result is the affine map `lin` of row `r` of the left operand, with the weight read
    transposed (the right operand holds it as (input, output)). -/
theorem rows_matmul_bias {M K N : Nat} {φ₁ φ₂ : FTy} (prec : Option ContractPrecision)
    {h : FVec Ideal ⟨2, ![M, K]⟩ φ₁} {W : FVec Ideal ⟨2, ![K, N]⟩ φ₂} {bb : FVec Ideal ⟨2, ![M, N]⟩ .f32}
    {H : Fin M → Fin K → EReal} {Wt : Fin N → Fin K → EReal} {bt : Fin N → EReal}
    (hh : RowsAre h H) (hW : ∀ (k : Fin K) (j : Fin N), W (ix2 k j) = Wt j k)
    (hb : ∀ (r : Fin M) (j : Fin N), bb (ix2 r j) = bt j) :
    RowsAre (addf (FloatOps.matmul (DotDims.plain M K N) prec h W (constant ⟨2, ![M, N]⟩ .f32 0x00000000#32)) bb)
      (fun r => lin (H r) Wt bt) := by
  intro r j
  show FloatOps.matmul (DotDims.plain M K N) prec h W (constant ⟨2, ![M, N]⟩ .f32 0x00000000#32) (ix2 r j) + bb (ix2 r j) = _
  rw [Cert.GCN.matmul_plain_zero_apply, hb r j]
  unfold lin
  exact congrArg (· + bt j) (Finset.sum_congr rfl fun k _ => by rw [hh r k, hW k j])

/-- The same product with no bias: entry (r, j) is the sum over `k` of row `r` of the left operand times column `j`
    of the right. -/
theorem rows_matmul {M K N : Nat} {φ₁ φ₂ : FTy} (prec : Option ContractPrecision)
    {h : FVec Ideal ⟨2, ![M, K]⟩ φ₁} {W : FVec Ideal ⟨2, ![K, N]⟩ φ₂}
    {H : Fin M → Fin K → EReal} {Wt : Fin K → Fin N → EReal}
    (hh : RowsAre h H) (hW : ∀ (k : Fin K) (j : Fin N), W (ix2 k j) = Wt k j) :
    RowsAre (FloatOps.matmul (DotDims.plain M K N) prec h W (constant ⟨2, ![M, N]⟩ .f32 0x00000000#32))
      (fun r j => ∑ k : Fin K, H r k * Wt k j) := by
  intro r j
  rw [Cert.GCN.matmul_plain_zero_apply]
  exact Finset.sum_congr rfl fun k _ => by rw [hh r k, hW k j]

/-- Two arrays joined along the columns: entry (r, j) is the first array's when `j` is below its width, and the
    second's at `j` less that width otherwise. -/
theorem rows_concat {M N₁ N₂ N : Nat} {φ : FTy} (hN : N = N₁ + N₂)
    {a : FVec Ideal ⟨2, ![M, N₁]⟩ φ} {b : FVec Ideal ⟨2, ![M, N₂]⟩ φ} {f : Fin M → Fin N₁ → EReal} {g : Fin M → Fin N₂ → EReal}
    (hc : Shape.Concatenates [(⟨2, ![M, N₁]⟩ : Shape), ⟨2, ![M, N₂]⟩] ⟨2, ![M, N]⟩ 1)
    (ha : RowsAre a f) (hb : RowsAre b g) :
    RowsAre (φ := φ) (concatenate ⟨2, ![M, N]⟩ 1 [⟨⟨2, ![M, N₁]⟩, a⟩, ⟨⟨2, ![M, N₂]⟩, b⟩] hc)
      (fun r j => if hj : j.val < N₁ then f r ⟨j.val, hj⟩ else g r ⟨j.val - N₁, by have := j.isLt; omega⟩) := by
  intro r j
  by_cases hj : j.val < N₁
  · beta_reduce
    rw [dif_pos hj, ← ha r ⟨j.val, hj⟩]
    refine concatenate_pair_apply_left (1 : Fin 2) a b hc (ix2 r j) rfl (ix2 r ⟨j.val, hj⟩) (fun c => ?_)
    match c with
    | ⟨0, _⟩ => rfl
    | ⟨1, _⟩ => rfl
  · beta_reduce
    rw [dif_neg hj, ← hb r ⟨j.val - N₁, by have := j.isLt; omega⟩]
    refine concatenate_pair_apply_right (1 : Fin 2) a b hc (ix2 r j) rfl rfl (ix2 r ⟨j.val - N₁, by have := j.isLt; omega⟩) (fun c hne => ?_) ?_
    · match c with
      | ⟨0, _⟩ => rfl
      | ⟨1, _⟩ => exact absurd rfl hne
    · show j.val - N₁ + N₁ = j.val
      omega

/-! ## The host's spellings

A host program writes the same layer with its own operations: `stablehlo.sine` / `cosine`, a `dot_general` (no
accumulator), and a scalar constant broadcast to the array's shape. At the ideal values each is the kernel's operation. -/

section Host
variable {M N : Nat} {φ : FTy}

/-- The host's elementwise sine. -/
theorem rows_hostSin {a : FVec Ideal ⟨2, ![M, N]⟩ φ} {f : Fin M → Fin N → EReal} (h : RowsAre a f) :
    RowsAre (Host.sin a) (fun r j => Ideal.sin (f r j)) :=
  fun r j => congrArg Ideal.sin (h r j)

/-- The host's elementwise cosine. -/
theorem rows_hostCos {a : FVec Ideal ⟨2, ![M, N]⟩ φ} {f : Fin M → Fin N → EReal} (h : RowsAre a f) :
    RowsAre (Host.cos a) (fun r j => Ideal.cos (f r j)) :=
  fun r j => congrArg Ideal.cos (h r j)

/-- A scalar constant broadcast to `[M, N]`: every entry is the constant's value. -/
theorem rows_splat (w : BitVec φ.bits) (h : (⟨0, ![]⟩ : Shape).BroadcastsInDim ⟨2, ![M, N]⟩ ![]) :
    RowsAre (φ := φ) (broadcastInDim ⟨2, ![M, N]⟩ ![] h (constant ⟨0, ![]⟩ φ w)) (fun _ _ => Ideal.ofBits φ w) :=
  fun r j => broadcastInDim_apply ![] h (constant (F := Ideal) ⟨0, ![]⟩ φ w) (ix2 r j) ix0 (fun a => a.elim0)

end Host

/-- The host's plain `dot_general` plus an array whose every row is the bias: the affine map `lin` of each row. -/
theorem rows_hostDot_bias {M K N : Nat} {φ₁ φ₂ : FTy} (prec : Option ContractPrecision) (sched : HostSchedule)
    {h : FVec Ideal ⟨2, ![M, K]⟩ φ₁} {W : FVec Ideal ⟨2, ![K, N]⟩ φ₂} {bb : FVec Ideal ⟨2, ![M, N]⟩ .f32}
    {H : Fin M → Fin K → EReal} {Wt : Fin N → Fin K → EReal} {bt : Fin N → EReal}
    (hh : RowsAre h H) (hW : ∀ (k : Fin K) (j : Fin N), W (ix2 k j) = Wt j k)
    (hb : ∀ (r : Fin M) (j : Fin N), bb (ix2 r j) = bt j) :
    RowsAre (addf (FloatOps.dotGeneral (DotDims.plain M K N) prec sched h W) bb) (fun r => lin (H r) Wt bt) := by
  intro r j
  show FloatOps.dotGeneral (DotDims.plain M K N) prec sched h W (ix2 r j) + bb (ix2 r j) = _
  rw [Cert.LibDot.dotGeneral_plain_apply, hb r j]
  unfold lin
  exact congrArg (· + bt j) (Finset.sum_congr rfl fun k _ => by rw [hh r k, hW k j])

/-- The host's plain `dot_general` alone. -/
theorem rows_hostDot {M K N : Nat} {φ₁ φ₂ : FTy} (prec : Option ContractPrecision) (sched : HostSchedule)
    {h : FVec Ideal ⟨2, ![M, K]⟩ φ₁} {W : FVec Ideal ⟨2, ![K, N]⟩ φ₂}
    {H : Fin M → Fin K → EReal} {Wt : Fin K → Fin N → EReal}
    (hh : RowsAre h H) (hW : ∀ (k : Fin K) (j : Fin N), W (ix2 k j) = Wt k j) :
    RowsAre (FloatOps.dotGeneral (DotDims.plain M K N) prec sched h W) (fun r j => ∑ k : Fin K, H r k * Wt k j) := by
  intro r j
  rw [Cert.LibDot.dotGeneral_plain_apply]
  exact Finset.sum_congr rfl fun k _ => by rw [hh r k, hW k j]

end Cert.Rowwise

end
-- ==== Proof.SirenSpec.lean ====
/-
  What both programs compute, as ONE function of the argument arrays.

  The network maps each input point (a row of three coordinates) to two outputs, independently of every other row:
    * the coordinates are scaled, and projected on 128 frequencies:  p f = Σ c, (x c · s c) · B c f;
    * the Fourier features are the sines of the projections followed by their cosines, times a constant c₂
      (the float nearest √2; it stays a symbol here, the same word in both programs);
    * a first sine layer  sin (ω · (h · W₀ᵀ + b₀))  with ω the float 30;
    * four sine layers    sin (h · Wᵢᵀ + bᵢ);
    * a last affine layer  h · W_fᵀ + b_f.
  Every layer is the affine map `lin` of the row (weights indexed (output, input)) under a sine. `net` is that composition
  on one row, and `G` reads it off the argument arrays: entry (n, o) of the result is `net` of row `n` of the
  points, at output `o`.
-/
import proofs.«147997_j8650064134364_2_alg».proof.Proof.LibRowwise

open scoped BigOperators

noncomputable section

namespace Cert.Siren

open Idealize.ShloMosaic Idealize.ShloMosaic.ValueIdx Cert.Rowwise

/-- The scaled coordinates projected on the frequencies. -/
def proj (x s : Fin 3 → EReal) (B : Fin 3 → Fin 128 → EReal) : Fin 128 → EReal :=
  fun f => ∑ c : Fin 3, (x c * s c) * B c f

/-- The Fourier features of the projections `p`: their sines, then their cosines, each times `c₂`. -/
def feat (p : Fin 128 → EReal) (c₂ : EReal) : Fin 256 → EReal :=
  fun j => (if hj : j.val < 128 then Ideal.sin (p ⟨j.val, hj⟩) else Ideal.cos (p ⟨j.val - 128, by have := j.isLt; omega⟩)) * c₂

/-- A sine layer: the sine of the affine map of the row. -/
def sinLayer {K N : Nat} (h : Fin K → EReal) (W : Fin N → Fin K → EReal) (b : Fin N → EReal) : Fin N → EReal :=
  fun j => Ideal.sin (lin h W b j)

/-- The first sine layer, whose affine map is scaled by `ω` under the sine. -/
def firstLayer {K N : Nat} (ω : EReal) (h : Fin K → EReal) (W : Fin N → Fin K → EReal) (b : Fin N → EReal) : Fin N → EReal :=
  fun j => Ideal.sin (ω * lin h W b j)

/-- The network on one row `x` of coordinates. -/
def net (c₂ ω : EReal) (x s : Fin 3 → EReal) (B : Fin 3 → Fin 128 → EReal)
    (W0 : Fin 256 → Fin 256 → EReal) (b0 : Fin 256 → EReal)
    (Wh : Fin 4 → Fin 256 → Fin 256 → EReal) (bh : Fin 4 → Fin 256 → EReal)
    (Wf : Fin 2 → Fin 256 → EReal) (bf : Fin 2 → EReal) : Fin 2 → EReal :=
  lin (sinLayer (sinLayer (sinLayer (sinLayer (firstLayer ω (feat (proj x s B) c₂) W0 b0)
    (Wh 0) (bh 0)) (Wh 1) (bh 1)) (Wh 2) (bh 2)) (Wh 3) (bh 3)) Wf bf

/-! ## The two literals

`c₂` is the float nearest √2 and `ω` the float 30, as the extended reals their words denote. Both programs carry the
same two words, so neither is ever evaluated. -/

/-- The word `0x3FB504F3`: the float nearest √2. -/
abbrev c₂ : EReal := Ideal.ofBits .f32 0x3FB504F3#32
/-- The word `0x41F00000`: the float 30. -/
abbrev ω : EReal := Ideal.ofBits .f32 0x41F00000#32

/-- The result array as one function of the argument arrays, index by index. -/
def G (c₂ ω : EReal)
    (x : (⟨2, ![262144, 3]⟩ : Shape).Idx → EReal) (s : (⟨2, ![1, 3]⟩ : Shape).Idx → EReal)
    (B : (⟨2, ![3, 128]⟩ : Shape).Idx → EReal) (W0 : (⟨2, ![256, 256]⟩ : Shape).Idx → EReal)
    (b0 : (⟨1, ![256]⟩ : Shape).Idx → EReal) (Wh : (⟨3, ![4, 256, 256]⟩ : Shape).Idx → EReal)
    (bh : (⟨2, ![4, 256]⟩ : Shape).Idx → EReal) (Wf : (⟨2, ![2, 256]⟩ : Shape).Idx → EReal)
    (bf : (⟨1, ![2]⟩ : Shape).Idx → EReal) : (⟨2, ![262144, 2]⟩ : Shape).Idx → EReal :=
  fun i => net c₂ ω (fun c => x (ix2 (i 0) c)) (fun c => s (ix2 0 c)) (fun c f => B (ix2 c f))
    (fun j k => W0 (ix2 j k)) (fun j => b0 (ix1 j)) (fun l j k => Wh (ix3 l j k)) (fun l j => bh (ix2 l j))
    (fun o k => Wf (ix2 o k)) (fun o => bf (ix1 o)) (i 1)

/-! ## The layers, row by row

Each lemma says: if the rows of the input array are known, the rows of the layer's output array are the layer's
function of them. The operations are spelt as the programs spell them: a plain matrix product into a zero
accumulator, the bias added as an array whose rows are all the bias, the elementwise sine. -/

section Layers
variable {M K N : Nat} {φ₁ φ₂ : FTy}

/-- The projection on the frequencies: a product of the scaled points, `[M, 3]`, by the frequency matrix `[3, 128]`. -/
theorem rows_proj (prec : Option ContractPrecision) {h : FVec Ideal ⟨2, ![M, 3]⟩ φ₁} {W : FVec Ideal ⟨2, ![3, 128]⟩ φ₂}
    {X : Fin M → Fin 3 → EReal} {S : Fin 3 → EReal} {B : Fin 3 → Fin 128 → EReal}
    (hh : RowsAre h (fun r c => X r c * S c)) (hW : ∀ (c : Fin 3) (f : Fin 128), W (ix2 c f) = B c f) :
    RowsAre (FloatOps.matmul (DotDims.plain M 3 128) prec h W (constant ⟨2, ![M, 128]⟩ .f32 0x00000000#32))
      (fun r => proj (X r) S B) :=
  rows_matmul prec hh hW

/-- The Fourier features: the sines and the cosines of the projections joined along the columns, times a splat. -/
theorem rows_feat {φ : FTy} {p : FVec Ideal ⟨2, ![M, 128]⟩ φ} {P : Fin M → Fin 128 → EReal} (c : Ideal φ)
    (hc : Shape.Concatenates [(⟨2, ![M, 128]⟩ : Shape), ⟨2, ![M, 128]⟩] ⟨2, ![M, 256]⟩ 1) (hp : RowsAre p P) :
    RowsAre (mulf (concatenate ⟨2, ![M, 256]⟩ 1 [⟨⟨2, ![M, 128]⟩, sin p⟩, ⟨⟨2, ![M, 128]⟩, cos p⟩] hc) (broadcast ⟨2, ![M, 256]⟩ c))
      (fun r => feat (P r) c) :=
  rows_mul_splat_right c (rows_concat rfl hc (rows_sin hp) (rows_cos hp))

/-- A sine layer. -/
theorem rows_sinLayer (prec : Option ContractPrecision)
    {h : FVec Ideal ⟨2, ![M, K]⟩ φ₁} {W : FVec Ideal ⟨2, ![K, N]⟩ φ₂} {bb : FVec Ideal ⟨2, ![M, N]⟩ .f32}
    {H : Fin M → Fin K → EReal} {Wt : Fin N → Fin K → EReal} {bt : Fin N → EReal}
    (hh : RowsAre h H) (hW : ∀ (k : Fin K) (j : Fin N), W (ix2 k j) = Wt j k)
    (hb : ∀ (r : Fin M) (j : Fin N), bb (ix2 r j) = bt j) :
    RowsAre (sin (addf (FloatOps.matmul (DotDims.plain M K N) prec h W (constant ⟨2, ![M, N]⟩ .f32 0x00000000#32)) bb))
      (fun r => sinLayer (H r) Wt bt) :=
  rows_sin (rows_matmul_bias prec hh hW hb)

/-- The first sine layer: the affine map times the splat `ω` (on the left), under the sine. -/
theorem rows_firstLayer (prec : Option ContractPrecision) (ω : Ideal .f32)
    {h : FVec Ideal ⟨2, ![M, K]⟩ φ₁} {W : FVec Ideal ⟨2, ![K, N]⟩ φ₂} {bb : FVec Ideal ⟨2, ![M, N]⟩ .f32}
    {H : Fin M → Fin K → EReal} {Wt : Fin N → Fin K → EReal} {bt : Fin N → EReal}
    (hh : RowsAre h H) (hW : ∀ (k : Fin K) (j : Fin N), W (ix2 k j) = Wt j k)
    (hb : ∀ (r : Fin M) (j : Fin N), bb (ix2 r j) = bt j) :
    RowsAre (sin (mulf (broadcast ⟨2, ![M, N]⟩ ω)
        (addf (FloatOps.matmul (DotDims.plain M K N) prec h W (constant ⟨2, ![M, N]⟩ .f32 0x00000000#32)) bb)))
      (fun r => firstLayer ω (H r) Wt bt) :=
  rows_sin (rows_mul_splat_left ω (rows_matmul_bias prec hh hW hb))

/-! The same layers in the host's spelling. -/

/-- The projection, by the host's `dot_general`. -/
theorem rows_hostProj (prec : Option ContractPrecision) (sched : HostSchedule)
    {h : FVec Ideal ⟨2, ![M, 3]⟩ φ₁} {W : FVec Ideal ⟨2, ![3, 128]⟩ φ₂}
    {X : Fin M → Fin 3 → EReal} {S : Fin 3 → EReal} {B : Fin 3 → Fin 128 → EReal}
    (hh : RowsAre h (fun r c => X r c * S c)) (hW : ∀ (c : Fin 3) (f : Fin 128), W (ix2 c f) = B c f) :
    RowsAre (FloatOps.dotGeneral (DotDims.plain M 3 128) prec sched h W) (fun r => proj (X r) S B) :=
  rows_hostDot prec sched hh hW

/-- The Fourier features, with the host's sine and cosine and a scalar constant broadcast to the array's shape. -/
theorem rows_hostFeat {φ : FTy} {p : FVec Ideal ⟨2, ![M, 128]⟩ φ} {P : Fin M → Fin 128 → EReal} (w : BitVec φ.bits)
    (hc : Shape.Concatenates [(⟨2, ![M, 128]⟩ : Shape), ⟨2, ![M, 128]⟩] ⟨2, ![M, 256]⟩ 1)
    (hs : (⟨0, ![]⟩ : Shape).BroadcastsInDim ⟨2, ![M, 256]⟩ ![]) (hp : RowsAre p P) :
    RowsAre (mulf (concatenate ⟨2, ![M, 256]⟩ 1 [⟨⟨2, ![M, 128]⟩, Host.sin p⟩, ⟨⟨2, ![M, 128]⟩, Host.cos p⟩] hc)
        (broadcastInDim ⟨2, ![M, 256]⟩ ![] hs (constant ⟨0, ![]⟩ φ w)))
      (fun r => feat (P r) (Ideal.ofBits φ w)) :=
  rows_mul (rows_concat rfl hc (rows_hostSin hp) (rows_hostCos hp)) (rows_splat w hs)

/-- A sine layer, by the host's `dot_general` and sine. -/
theorem rows_hostSinLayer (prec : Option ContractPrecision) (sched : HostSchedule)
    {h : FVec Ideal ⟨2, ![M, K]⟩ φ₁} {W : FVec Ideal ⟨2, ![K, N]⟩ φ₂} {bb : FVec Ideal ⟨2, ![M, N]⟩ .f32}
    {H : Fin M → Fin K → EReal} {Wt : Fin N → Fin K → EReal} {bt : Fin N → EReal}
    (hh : RowsAre h H) (hW : ∀ (k : Fin K) (j : Fin N), W (ix2 k j) = Wt j k)
    (hb : ∀ (r : Fin M) (j : Fin N), bb (ix2 r j) = bt j) :
    RowsAre (Host.sin (addf (FloatOps.dotGeneral (DotDims.plain M K N) prec sched h W) bb))
      (fun r => sinLayer (H r) Wt bt) :=
  rows_hostSin (rows_hostDot_bias prec sched hh hW hb)

/-- The first sine layer, with the scale a scalar constant broadcast to the array's shape (on the left). -/
theorem rows_hostFirstLayer (prec : Option ContractPrecision) (sched : HostSchedule) (w : BitVec FTy.f32.bits)
    (hs : (⟨0, ![]⟩ : Shape).BroadcastsInDim ⟨2, ![M, N]⟩ ![])
    {h : FVec Ideal ⟨2, ![M, K]⟩ φ₁} {W : FVec Ideal ⟨2, ![K, N]⟩ φ₂} {bb : FVec Ideal ⟨2, ![M, N]⟩ .f32}
    {H : Fin M → Fin K → EReal} {Wt : Fin N → Fin K → EReal} {bt : Fin N → EReal}
    (hh : RowsAre h H) (hW : ∀ (k : Fin K) (j : Fin N), W (ix2 k j) = Wt j k)
    (hb : ∀ (r : Fin M) (j : Fin N), bb (ix2 r j) = bt j) :
    RowsAre (Host.sin (mulf (broadcastInDim ⟨2, ![M, N]⟩ ![] hs (constant ⟨0, ![]⟩ .f32 w))
        (addf (FloatOps.dotGeneral (DotDims.plain M K N) prec sched h W) bb)))
      (fun r => firstLayer (Ideal.ofBits .f32 w) (H r) Wt bt) :=
  rows_hostSin (rows_mul (rows_splat w hs) (rows_hostDot_bias prec sched hh hW hb))

end Layers

end Cert.Siren

end
-- ==== Proof.KernelBody.lean ====
/-
  The kernel body's one store, read row by row.

  At each grid point the body loads a block of 2048 points and the whole of every weight array, and stores one value:
  the network applied to each of the 2048 rows. The weights arrive already transposed (the host program transposes
  them before the call), so where the specification reads a weight at (output, input) the body's operand is read at
  (input, output); the four hidden weights and biases are slices of one stacked array. This module names each of
  those operands at an index, and then follows the body's value layer by layer: every row of what it stores is
  `net` of the same row of the block of points.
-/
import proofs.«147997_j8650064134364_2_alg».proof.Proof.Gen.KernelIdeal.Skeleton
import proofs.«147997_j8650064134364_2_alg».proof.Proof.SirenSpec
import Idealize.ShloMosaic.Lib.Pipeline.Value

open scoped BigOperators

noncomputable section

namespace Cert.KernelIdeal.Body

open Cert.KernelIdeal Cert.KernelIdeal.Gen Idealize.ShloMosaic Idealize.ShloMosaic.ValueIdx Cert.Rowwise Cert.Siren

/-! ## The operands at an index -/

/-- Hidden weight `l`, as the body takes it from the stacked array: a unit slice at offset `l` on the leading axis,
    with that axis dropped. Entry (k, j) of it is entry (l, k, j) of the stack. -/
theorem weight_slice (v : S4x256x256.Idx → EReal) (l : Fin 4) {off : Fin 3 → Nat} (hoff : off = ![l.val, 0, 0])
    (h0 : S4x256x256.ShapeCasts S4x256x256) (hs : S4x256x256.Slices off S1x256x256) (hc : S1x256x256.ShapeCasts S256x256)
    (k j : Fin 256) :
    shapeCast S256x256 (extractStridedSlice S1x256x256 off (shapeCast S4x256x256 v h0) hs) hc (ix2 k j) = v (ix3 l k j) := by
  subst hoff
  rw [shapeCast_self]
  refine (shapeCast_apply _ hc (ix2 k j) (ix3 (0 : Fin 1) k j) ?_).trans ?_
  · rw [Shape.rowMajor_val_three, Shape.rowMajor_val_two]
    show (0 * 256 + k.val) * 256 + j.val = k.val * 256 + j.val
    omega
  · refine extractStridedSlice_apply _ v hs (ix3 (0 : Fin 1) k j) (ix3 l k j) (fun a => ?_)
    match a with
    | ⟨0, _⟩ => show l.val = l.val + 0; omega
    | ⟨1, _⟩ => show k.val = 0 + k.val; omega
    | ⟨2, _⟩ => show j.val = 0 + j.val; omega

/-- Hidden bias `l`, as the body adds it: row `l` of the stacked biases, cut out, flattened, put back as one row and
    broadcast over the 2048 rows. Entry (r, j) of that array is entry (l, j) of the stack. -/
theorem bias_slice (v : S4x256.Idx → EReal) (l : Fin 4) {off : Fin 2 → Nat} (hoff : off = ![l.val, 0])
    (hs : S4x256.Slices off S1x256) (h1 : S1x256.ShapeCasts S256) (h2 : S256.ShapeCasts S1x256)
    (hb : S1x256.Broadcasts S2048x256) (r : Fin 2048) (j : Fin 256) :
    broadcastTo S2048x256 (shapeCast S1x256 (shapeCast S256 (extractStridedSlice S1x256 off v hs) h1) h2) hb (ix2 r j) = v (ix2 l j) := by
  subst hoff
  rw [broadcastTo_row, shapeCast_shapeCast]
  refine extractStridedSlice_apply _ v hs (ix2 (0 : Fin 1) j) (ix2 l j) (fun a => ?_)
  match a with
  | ⟨0, _⟩ => show l.val = l.val + 0; omega
  | ⟨1, _⟩ => show j.val = 0 + j.val; omega

/-- A bias held as one row `[1, N]`, cast to its own shape and broadcast over `M` rows: entry (r, j) is the row at `j`. -/
theorem bias_row {M N : Nat} (v : (⟨2, ![1, N]⟩ : Shape).Idx → EReal) (h : (⟨2, ![1, N]⟩ : Shape).ShapeCasts ⟨2, ![1, N]⟩)
    (hb : (⟨2, ![1, N]⟩ : Shape).Broadcasts ⟨2, ![M, N]⟩) (r : Fin M) (j : Fin N) :
    broadcastTo ⟨2, ![M, N]⟩ (shapeCast ⟨2, ![1, N]⟩ v h) hb (ix2 r j) = v (ix2 0 j) := by
  rw [broadcastTo_row, shapeCast_self]

/-! ## The body's value, layer by layer

The lemmas take the loaded blocks as variables, together with a name for each block's entries as the specification
wants them — the weights by (output, input), though the blocks hold them by (input, output) — so that they can be
instantiated at a grid point's blocks, whose entries are entries of the argument arrays. -/

section
variable (x0 : Vec Ideal S2048x3 .f32) (x1 : Vec Ideal S1x3 .f32) (x2 : Vec Ideal S3x128 .f32)
  (x3 : Vec Ideal S256x256 .bf16) (x4 : Vec Ideal S1x256 .f32) (x5 : Vec Ideal S4x256x256 .bf16)
  (x6 : Vec Ideal S4x256 .f32) (x7 : Vec Ideal S256x2 .bf16) (x8 : Vec Ideal S1x2 .f32)
variable {X : Fin 2048 → Fin 3 → EReal} {S : Fin 3 → EReal} {B : Fin 3 → Fin 128 → EReal}
  {W0 : Fin 256 → Fin 256 → EReal} {b0 : Fin 256 → EReal} {Wh : Fin 4 → Fin 256 → Fin 256 → EReal}
  {bh : Fin 4 → Fin 256 → EReal} {Wf : Fin 2 → Fin 256 → EReal} {bf : Fin 2 → EReal}

/-- The rows after hidden layer 0 (what the first half of the body hands to the second): the features of the
    block's points through the first sine layer and hidden layer 0. -/
theorem first_half_rows (hx : ∀ r c, x0 (ix2 r c) = X r c) (hs : ∀ c, x1 (ix2 0 c) = S c)
    (hB : ∀ c f, x2 (ix2 c f) = B c f) (hW0 : ∀ k j, x3 (ix2 k j) = W0 j k) (hb0 : ∀ j, x4 (ix2 0 j) = b0 j)
    (hWh : ∀ l k j, x5 (ix3 l k j) = Wh l j k) (hbh : ∀ l j, x6 (ix2 l j) = bh l j) :
    RowsAre (φ := .bf16) (k0_pay3 x0 x1 x2 x3 x4 x5 x6)
      (fun r => sinLayer (firstLayer ω (feat (proj (X r) S B) c₂) W0 b0) (Wh 0) (bh 0)) := by
  unfold k0_pay3 k0_pay2
  refine rows_truncf _ ?_
  refine rows_sinLayer none ?_ (fun k j => (weight_slice x5 0 rfl _ _ _ k j).trans (hWh 0 k j))
    (fun r j => (bias_slice x6 0 rfl _ _ _ _ r j).trans (hbh 0 j))
  refine rows_truncf _ ?_
  refine rows_firstLayer none ω ?_ (fun k j => (congrFun (shapeCast_self x3 _) (ix2 k j)).trans (hW0 k j))
    (fun r j => (bias_row x4 _ _ r j).trans (hb0 j))
  refine rows_truncf _ ?_
  refine rows_feat c₂ _ ?_
  refine rows_proj (some .fp32) ?_ hB
  exact rows_mul hx (fun r c => (broadcastTo_row x1 _ r c).trans (hs c))

/-- The rows of the stored value: `net` of the rows of the block of points. -/
theorem stored_rows (hx : ∀ r c, x0 (ix2 r c) = X r c) (hs : ∀ c, x1 (ix2 0 c) = S c)
    (hB : ∀ c f, x2 (ix2 c f) = B c f) (hW0 : ∀ k j, x3 (ix2 k j) = W0 j k) (hb0 : ∀ j, x4 (ix2 0 j) = b0 j)
    (hWh : ∀ l k j, x5 (ix3 l k j) = Wh l j k) (hbh : ∀ l j, x6 (ix2 l j) = bh l j)
    (hWf : ∀ k o, x7 (ix2 k o) = Wf o k) (hbf : ∀ o, x8 (ix2 0 o) = bf o) :
    RowsAre (φ := .f32)
      (k0_pay1 (k0_pay2 x5) x6 (k0_pay3 x0 x1 x2 x3 x4 x5 x6) (k0_pay4 x5) (constant S2048x256 .f32 0x00000000#32) x7 x8)
      (fun r => net c₂ ω (X r) S B W0 b0 Wh bh Wf bf) := by
  unfold k0_pay1 k0_pay4 k0_pay2 net
  refine rows_matmul_bias none ?_ (fun k o => (congrFun (shapeCast_self x7 _) (ix2 k o)).trans (hWf k o))
    (fun r o => (bias_row x8 _ _ r o).trans (hbf o))
  refine rows_truncf _ ?_
  refine rows_sinLayer none ?_ (fun k j => (weight_slice x5 3 rfl _ _ _ k j).trans (hWh 3 k j))
    (fun r j => (bias_slice x6 3 rfl _ _ _ _ r j).trans (hbh 3 j))
  refine rows_truncf _ ?_
  refine rows_sinLayer none ?_ (fun k j => (weight_slice x5 2 rfl _ _ _ k j).trans (hWh 2 k j))
    (fun r j => (bias_slice x6 2 rfl _ _ _ _ r j).trans (hbh 2 j))
  refine rows_truncf _ ?_
  refine rows_sinLayer none ?_ (fun k j => (weight_slice x5 1 rfl _ _ _ k j).trans (hWh 1 k j))
    (fun r j => (bias_slice x6 1 rfl _ _ _ _ r j).trans (hbh 1 j))
  exact first_half_rows x0 x1 x2 x3 x4 x5 x6 hx hs hB hW0 hb0 hWh hbh

end

end Cert.KernelIdeal.Body

end
-- ==== Proof.KernelArray.lean ====
/-
  From blocks to the array: what the kernel's run leaves in the result array.

  The grid has 128 points. Point `t` stages rows 2048·t … 2048·t + 2047 of the points, and the whole of every other
  operand (those windows' block index is zero at every point); it writes back rows 2048·t … 2048·t + 2047 of the
  result. Three of the operands are not arguments but arrays the host program wrote just before the call — each
  weight transposed, so that entry (input, output) holds the argument's entry (output, input) — and two are biases
  reshaped to one row. With those read at an index, every entry of a point's blocks is an entry of an argument array,
  the body's stored rows (KernelBody) are rows of `G` of the arguments, and since the 128 row ranges cover the result
  array it ends as `G` whole.
-/
import proofs.«147997_j8650064134364_2_alg».proof.Proof.Gen.KernelIdeal.Value
import proofs.«147997_j8650064134364_2_alg».proof.Proof.KernelBody
import Idealize.ShloMosaic.Lib.StableHlo.Run

set_option maxRecDepth 16384

open scoped BigOperators

noncomputable section

namespace Cert.KernelIdeal.Array

open Cert.KernelIdeal Cert.KernelIdeal.Gen Cert.KernelIdeal.Body
open Idealize.ShloMosaic Idealize.ShloMosaic.TcCoe Idealize.SL.Sem Idealize.ShloMosaic.StableHlo
open Idealize.ShloMosaic.ValueIdx Cert.Rowwise Cert.Siren
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The arrays the host program wrote before the call, at an index -/

/-- `main_v1` is the first weight transposed (and narrowed, which changes nothing here). -/
theorem V_v1_at (c : Dev nD) (k j : Fin 256) :
    V m c main_v1 (ix2 k j) = m ((c : Thread nD τ).loc main_arg3) (ix2 j k) := by
  have e : (V m c main_v1 : S256x256.Idx → EReal)
      = truncf (F := Ideal) .bf16 (transpose S256x256 [1, 0] (m ((c : Thread nD τ).loc main_arg3) : S256x256.Idx → EReal) transposes_S256x256_S256x256_1_0) bitsLt_bf16_f32 := by
    dsimp only [Gen.V, Gen.hostOps0]; after_results
  show (V m c main_v1 : S256x256.Idx → EReal) (ix2 k j) = _
  rw [e]
  exact transpose_apply [1, 0] _ transposes_S256x256_S256x256_1_0 (ix2 k j) (ix2 j k)
    (fun b => match b with | ⟨0, _⟩ => rfl | ⟨1, _⟩ => rfl)

/-- `main_v3` is the stack of hidden weights, each transposed. -/
theorem V_v3_at (c : Dev nD) (l : Fin 4) (k j : Fin 256) :
    V m c main_v3 (ix3 l k j) = m ((c : Thread nD τ).loc main_arg5) (ix3 l j k) := by
  have e : (V m c main_v3 : S4x256x256.Idx → EReal)
      = truncf (F := Ideal) .bf16 (transpose S4x256x256 [0, 2, 1] (m ((c : Thread nD τ).loc main_arg5) : S4x256x256.Idx → EReal) transposes_S4x256x256_S4x256x256_0_2_1) bitsLt_bf16_f32 := by
    dsimp only [Gen.V, Gen.hostOps0]; after_results
  show (V m c main_v3 : S4x256x256.Idx → EReal) (ix3 l k j) = _
  rw [e]
  exact transpose_apply [0, 2, 1] _ transposes_S4x256x256_S4x256x256_0_2_1 (ix3 l k j) (ix3 l j k)
    (fun b => match b with | ⟨0, _⟩ => rfl | ⟨1, _⟩ => rfl | ⟨2, _⟩ => rfl)

/-- `main_v5` is the last weight transposed. -/
theorem V_v5_at (c : Dev nD) (k : Fin 256) (o : Fin 2) :
    V m c main_v5 (ix2 k o) = m ((c : Thread nD τ).loc main_arg7) (ix2 o k) := by
  have e : (V m c main_v5 : S256x2.Idx → EReal)
      = truncf (F := Ideal) .bf16 (transpose S256x2 [1, 0] (m ((c : Thread nD τ).loc main_arg7) : S2x256.Idx → EReal) transposes_S2x256_S256x2_1_0) bitsLt_bf16_f32 := by
    dsimp only [Gen.V, Gen.hostOps0]; after_results
  show (V m c main_v5 : S256x2.Idx → EReal) (ix2 k o) = _
  rw [e]
  exact transpose_apply [1, 0] _ transposes_S2x256_S256x2_1_0 (ix2 k o) (ix2 o k)
    (fun b => match b with | ⟨0, _⟩ => rfl | ⟨1, _⟩ => rfl)

/-- `main_v6` is the first bias as one row. -/
theorem V_v6_at (c : Dev nD) (j : Fin 256) :
    V m c main_v6 (ix2 0 j) = m ((c : Thread nD τ).loc main_arg4) (ix1 j) := by
  have e : (V m c main_v6 : S1x256.Idx → EReal)
      = shapeCast S1x256 (m ((c : Thread nD τ).loc main_arg4) : S256.Idx → EReal) shapeCasts_S256_S1x256 := by
    dsimp only [Gen.V, Gen.hostOps0]; after_results; rfl
  show (V m c main_v6 : S1x256.Idx → EReal) (ix2 0 j) = _
  rw [e]
  refine shapeCast_apply _ shapeCasts_S256_S1x256 (ix2 (0 : Fin 1) j) (ix1 j) ?_
  rw [Shape.rowMajor_val_one, Shape.rowMajor_val_two]
  show j.val = 0 * 256 + j.val
  omega

/-- `main_v7` is the last bias as one row. -/
theorem V_v7_at (c : Dev nD) (o : Fin 2) :
    V m c main_v7 (ix2 0 o) = m ((c : Thread nD τ).loc main_arg8) (ix1 o) := by
  have e : (V m c main_v7 : S1x2.Idx → EReal)
      = shapeCast S1x2 (m ((c : Thread nD τ).loc main_arg8) : S2.Idx → EReal) shapeCasts_S2_S1x2 := by
    dsimp only [Gen.V, Gen.hostOps0]; after_results; rfl
  show (V m c main_v7 : S1x2.Idx → EReal) (ix2 0 o) = _
  rw [e]
  refine shapeCast_apply _ shapeCasts_S2_S1x2 (ix2 (0 : Fin 1) o) (ix1 o) ?_
  rw [Shape.rowMajor_val_one, Shape.rowMajor_val_two]
  show o.val = 0 * 2 + o.val
  omega

/-! ## The printed index maps, decided over the 128 points -/

/-- The points' window moves one block of rows per point. -/
theorem idx0 : ∀ t : Fin cfg0.N, win0_0.index t (0 : Fin 2) = t.val ∧ win0_0.index t (1 : Fin 2) = 0 :=
  (by decide +kernel : ∀ t : Fin grid0.N, _)
/-- So does the result's. -/
theorem idx9 : ∀ t : Fin cfg0.N, win0_9.index t (0 : Fin 2) = t.val ∧ win0_9.index t (1 : Fin 2) = 0 :=
  (by decide +kernel : ∀ t : Fin grid0.N, _)
/-! Every other window stays on block zero. -/
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 3) = 0 ∧ win0_5.index t (1 : Fin 3) = 0 ∧ win0_5.index t (2 : Fin 3) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)

/-! ## A point's blocks are entries of the argument arrays -/

/-- The row of the whole array that row `r` of point `t`'s block is. -/
def rowOf (t : Fin cfg0.N) (r : Fin 2048) : Fin 262144 :=
  ⟨t.val * 2048 + r.val, by have h : cfg0.N = 128 := N_0; have := t.isLt; have := r.isLt; omega⟩

/-- Entry (r, c) of point `t`'s block of points is entry (2048·t + r, c) of the points. -/
theorem blk0_at (c : Dev nD) (t : Fin cfg0.N) (r : Fin 2048) (j : Fin 3) :
    iblk m c 0 t (ix2 r j) = m ((c : Thread nD τ).loc main_arg0) (ix2 (rowOf t r) j) := by
  obtain ⟨e0, e1⟩ := idx0 t
  show V m c main_arg0 (((cfg0.win 0).blk t).view.emb (ix2 r j)) = _
  rw [V_main_arg0]
  refine congrArg _ (funext fun a => Fin.ext ?_)
  match a with
  | ⟨0, _⟩ => show win0_0.index t (0 : Fin 2) * 2048 + 1 * r.val = t.val * 2048 + r.val; omega
  | ⟨1, _⟩ => show win0_0.index t (1 : Fin 2) * 3 + 1 * j.val = j.val; omega

/-- Window 1's block is its whole array at every point: an entry of the block is the same entry of `main_arg1`. -/
theorem blk1_id (c : Dev nD) (t : Fin cfg0.N) (y : S1x3.Idx) : iblk m c 1 t y = V m c main_arg1 y := by
  obtain ⟨e0, e1⟩ := idx1 t
  show V m c main_arg1 (((cfg0.win 1).blk t).view.emb y) = V m c main_arg1 y
  refine congrArg _ (funext fun a => Fin.ext ?_)
  match a with
  | ⟨0, _⟩ => show win0_1.index t (0 : Fin 2) * 1 + 1 * (y 0).val = (y 0).val; omega
  | ⟨1, _⟩ => show win0_1.index t (1 : Fin 2) * 3 + 1 * (y 1).val = (y 1).val; omega

/-- Window 2's block is its whole array at every point: an entry of the block is the same entry of `main_arg2`. -/
theorem blk2_id (c : Dev nD) (t : Fin cfg0.N) (y : S3x128.Idx) : iblk m c 2 t y = V m c main_arg2 y := by
  obtain ⟨e0, e1⟩ := idx2 t
  show V m c main_arg2 (((cfg0.win 2).blk t).view.emb y) = V m c main_arg2 y
  refine congrArg _ (funext fun a => Fin.ext ?_)
  match a with
  | ⟨0, _⟩ => show win0_2.index t (0 : Fin 2) * 3 + 1 * (y 0).val = (y 0).val; omega
  | ⟨1, _⟩ => show win0_2.index t (1 : Fin 2) * 128 + 1 * (y 1).val = (y 1).val; omega

/-- Window 3's block is its whole array at every point: an entry of the block is the same entry of `main_v1`. -/
theorem blk3_id (c : Dev nD) (t : Fin cfg0.N) (y : S256x256.Idx) : iblk m c 3 t y = V m c main_v1 y := by
  obtain ⟨e0, e1⟩ := idx3 t
  show V m c main_v1 (((cfg0.win 3).blk t).view.emb y) = V m c main_v1 y
  refine congrArg _ (funext fun a => Fin.ext ?_)
  match a with
  | ⟨0, _⟩ => show win0_3.index t (0 : Fin 2) * 256 + 1 * (y 0).val = (y 0).val; omega
  | ⟨1, _⟩ => show win0_3.index t (1 : Fin 2) * 256 + 1 * (y 1).val = (y 1).val; omega

/-- Window 4's block is its whole array at every point: an entry of the block is the same entry of `main_v6`. -/
theorem blk4_id (c : Dev nD) (t : Fin cfg0.N) (y : S1x256.Idx) : iblk m c 4 t y = V m c main_v6 y := by
  obtain ⟨e0, e1⟩ := idx4 t
  show V m c main_v6 (((cfg0.win 4).blk t).view.emb y) = V m c main_v6 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 256 + 1 * (y 1).val = (y 1).val; omega

/-- Window 5's block is its whole array at every point: an entry of the block is the same entry of `main_v3`. -/
theorem blk5_id (c : Dev nD) (t : Fin cfg0.N) (y : S4x256x256.Idx) : iblk m c 5 t y = V m c main_v3 y := by
  obtain ⟨e0, e1, e2⟩ := idx5 t
  show V m c main_v3 (((cfg0.win 5).blk t).view.emb y) = V m c main_v3 y
  refine congrArg _ (funext fun a => Fin.ext ?_)
  match a with
  | ⟨0, _⟩ => show win0_5.index t (0 : Fin 3) * 4 + 1 * (y 0).val = (y 0).val; omega
  | ⟨1, _⟩ => show win0_5.index t (1 : Fin 3) * 256 + 1 * (y 1).val = (y 1).val; omega
  | ⟨2, _⟩ => show win0_5.index t (2 : Fin 3) * 256 + 1 * (y 2).val = (y 2).val; omega

/-- Window 6's block is its whole array at every point: an entry of the block is the same entry of `main_arg6`. -/
theorem blk6_id (c : Dev nD) (t : Fin cfg0.N) (y : S4x256.Idx) : iblk m c 6 t y = V m c main_arg6 y := by
  obtain ⟨e0, e1⟩ := idx6 t
  show V m c main_arg6 (((cfg0.win 6).blk t).view.emb y) = V m c main_arg6 y
  refine congrArg _ (funext fun a => Fin.ext ?_)
  match a with
  | ⟨0, _⟩ => show win0_6.index t (0 : Fin 2) * 4 + 1 * (y 0).val = (y 0).val; omega
  | ⟨1, _⟩ => show win0_6.index t (1 : Fin 2) * 256 + 1 * (y 1).val = (y 1).val; omega

/-- Window 7's block is its whole array at every point: an entry of the block is the same entry of `main_v5`. -/
theorem blk7_id (c : Dev nD) (t : Fin cfg0.N) (y : S256x2.Idx) : iblk m c 7 t y = V m c main_v5 y := by
  obtain ⟨e0, e1⟩ := idx7 t
  show V m c main_v5 (((cfg0.win 7).blk t).view.emb y) = V m c main_v5 y
  refine congrArg _ (funext fun a => Fin.ext ?_)
  match a with
  | ⟨0, _⟩ => show win0_7.index t (0 : Fin 2) * 256 + 1 * (y 0).val = (y 0).val; omega
  | ⟨1, _⟩ => show win0_7.index t (1 : Fin 2) * 2 + 1 * (y 1).val = (y 1).val; omega

/-- Window 8's block is its whole array at every point: an entry of the block is the same entry of `main_v7`. -/
theorem blk8_id (c : Dev nD) (t : Fin cfg0.N) (y : S1x2.Idx) : iblk m c 8 t y = V m c main_v7 y := by
  obtain ⟨e0, e1⟩ := idx8 t
  show V m c main_v7 (((cfg0.win 8).blk t).view.emb y) = V m c main_v7 y
  refine congrArg _ (funext fun a => Fin.ext ?_)
  match a with
  | ⟨0, _⟩ => show win0_8.index t (0 : Fin 2) * 1 + 1 * (y 0).val = (y 0).val; omega
  | ⟨1, _⟩ => show win0_8.index t (1 : Fin 2) * 2 + 1 * (y 1).val = (y 1).val; omega

/-! ## What a point writes back -/

/-- The result array the run should leave: `G` of the argument arrays as launched. -/
def Gm (c : Dev nD) : S262144x2.Idx → EReal :=
  G c₂ ω (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- The body's stored value over point `t`'s blocks, at an entry of the block, is `G` at the entry of the array that the
    result window's block puts there. -/
theorem payload_at (c : Dev nD) (t : Fin cfg0.N) (y : S2048x2.Idx) :
    k0_pay1 (k0_pay2 (iblk m c 5 t)) (iblk m c 6 t)
        (k0_pay3 (iblk m c 0 t) (iblk m c 1 t) (iblk m c 2 t) (iblk m c 3 t) (iblk m c 4 t) (iblk m c 5 t) (iblk m c 6 t))
        (k0_pay4 (iblk m c 5 t)) (constant S2048x256 .f32 0x00000000#32) (iblk m c 7 t) (iblk m c 8 t) y
      = Gm m c (((cfg0.win 9).blk t).view.emb y) := by
  rw [eq_ix2 y]
  have hemb : ((cfg0.win 9).blk t).view.emb (ix2 (y 0) (y 1)) = ix2 (rowOf t (y 0)) (y 1) := by
    obtain ⟨e0, e1⟩ := idx9 t
    funext a; apply Fin.ext
    match a with
    | ⟨0, _⟩ => show win0_9.index t (0 : Fin 2) * 2048 + 1 * (y 0).val = t.val * 2048 + (y 0).val; omega
    | ⟨1, _⟩ => show win0_9.index t (1 : Fin 2) * 2 + 1 * (y 1).val = (y 1).val; omega
  refine Eq.trans ?_ (congrArg (Gm m c) hemb.symm)
  exact stored_rows (iblk m c 0 t) (iblk m c 1 t) (iblk m c 2 t) (iblk m c 3 t) (iblk m c 4 t) (iblk m c 5 t)
    (iblk m c 6 t) (iblk m c 7 t) (iblk m c 8 t)
    (X := fun r c' => m ((c : Thread nD τ).loc main_arg0) (ix2 (rowOf t r) c'))
    (S := fun c' => m ((c : Thread nD τ).loc main_arg1) (ix2 0 c'))
    (B := fun c' f => m ((c : Thread nD τ).loc main_arg2) (ix2 c' f))
    (W0 := fun j k => m ((c : Thread nD τ).loc main_arg3) (ix2 j k))
    (b0 := fun j => m ((c : Thread nD τ).loc main_arg4) (ix1 j))
    (Wh := fun l j k => m ((c : Thread nD τ).loc main_arg5) (ix3 l j k))
    (bh := fun l j => m ((c : Thread nD τ).loc main_arg6) (ix2 l j))
    (Wf := fun o k => m ((c : Thread nD τ).loc main_arg7) (ix2 o k))
    (bf := fun o => m ((c : Thread nD τ).loc main_arg8) (ix1 o))
    (fun r c' => blk0_at m c t r c')
    (fun c' => (blk1_id m c t (ix2 0 c')).trans (congrFun (V_main_arg1 m c) (ix2 0 c')))
    (fun c' f => (blk2_id m c t (ix2 c' f)).trans (congrFun (V_main_arg2 m c) (ix2 c' f)))
    (fun k j => (blk3_id m c t (ix2 k j)).trans (V_v1_at m c k j))
    (fun j => (blk4_id m c t (ix2 0 j)).trans (V_v6_at m c j))
    (fun l k j => (blk5_id m c t (ix3 l k j)).trans (V_v3_at m c l k j))
    (fun l j => (blk6_id m c t (ix2 l j)).trans (congrFun (V_main_arg6 m c) (ix2 l j)))
    (fun k o => (blk7_id m c t (ix2 k o)).trans (V_v5_at m c k o))
    (fun o => (blk8_id m c t (ix2 0 o)).trans (V_v7_at m c o))
    (y 0) (y 1)

/-- WHAT POINT `t` WRITES BACK is block `t` of `G` of the argument arrays. -/
theorem flushed_eq (c : Dev nD) (t : Fin cfg0.N) :
    (dats m 0 c).flushed 9 t = ((cfg0.win 9).blk t).view.read (Elt Ideal) (Gm m c) := by
  show (cfg0.win 9).cut (grid0.coords t) ((dats m 0 c).after 9 t) = _
  rw [after0_9]
  unfold out0_9
  rw [View.canon_unit_zero hz2]
  simp only [View.ld_unit_zero (S := S2048x3) hz2,
    View.ld_unit_zero (S := S1x3) hz2,
    View.ld_unit_zero (S := S3x128) hz2,
    View.ld_unit_zero (S := S256x256) hz2,
    View.ld_unit_zero (S := S1x256) hz2,
    View.ld_unit_zero (S := S4x256) hz2,
    View.ld_unit_zero (S := S256x2) hz2,
    View.ld_unit_zero (S := S1x2) hz2,
    View.ld_unit_zero (S := S4x256x256) hz3]
  funext y
  exact payload_at m c t y

/-! ## The 128 blocks of rows cover the result array -/

/-- An index of the result array is in point `t`'s block iff each coordinate is in the block's range on its axis. -/
theorem mem_blk (t : Fin cfg0.N) (i : S262144x2.Idx) :
    i ∈ ((cfg0.win 9).blk t).view.set ↔ ∀ a : Fin 2, win0_9.index t a * S2048x2.size a ≤ (i a).val ∧ (i a).val < win0_9.index t a * S2048x2.size a + S2048x2.size a := by
  show i ∈ ((View.whole main_v8).slice (win0_9.rect t)).set ↔ _
  rw [View.set_slice_whole, Rect.mem_set_unit]
  exact Iff.rfl

/-- Row `n` of the result is written back by point `n / 2048`. -/
theorem cover (i : S262144x2.Idx) :
    ∃ t : Fin cfg0.N, (cfg0.win 9).flush t = true ∧ i ∈ ((cfg0.win 9).blk t).view.set := by
  have hi0 : (i 0).val < 262144 := (i 0).isLt
  have hi1 : (i 1).val < 2 := (i 1).isLt
  have hN : cfg0.N = 128 := N_0
  obtain ⟨t, ht⟩ : ∃ t : Fin cfg0.N, t.val = (i 0).val / 2048 := ⟨⟨(i 0).val / 2048, by omega⟩, rfl⟩
  obtain ⟨e0, e1⟩ := idx9 t
  refine ⟨t, flush0_9 t, ?_⟩
  rw [mem_blk]
  intro a
  match a with
  | ⟨0, _⟩ => show win0_9.index t (0 : Fin 2) * 2048 ≤ (i 0).val ∧ (i 0).val < win0_9.index t (0 : Fin 2) * 2048 + 2048; omega
  | ⟨1, _⟩ => show win0_9.index t (1 : Fin 2) * 2 ≤ (i 1).val ∧ (i 1).val < win0_9.index t (1 : Fin 2) * 2 + 2; omega

/-- THE ARRAY after the run: `G` of the argument arrays. -/
theorem final (c : Dev nD) : (dats m 0 c).arrAt 9 cfg0.N = Gm m c :=
  (dats m 0 c).arrAt_eq_of_cover 9 _ (fun t _ => flushed_eq m c t) cover

/-- The kernel's run: every weakly fair execution terminates with the result array at `G` of the argument arrays,
    and the argument arrays unchanged. -/
theorem run : θ_run defs (onTc (τ := τ) (main (F := Ideal))) ⟨m, fun _ => 0, ρ⟩ fun r => ∀ c : Dev nD,
      r.2.mem ((c : Thread nD τ).loc main_v8) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.Array

end
-- ==== Proof.RefValue.lean ====
/-
  The reference computes `G`.

  The reference is the same network written over the whole array of points at once. Its operands differ from the
  kernel's only in where they sit: it transposes each weight itself, right before the product, so the array it
  multiplies by holds, at (input, output), the argument's entry (output, input); its biases are vectors broadcast
  over the rows. With each of those operands named at an index, its value is followed layer by layer, exactly as
  the kernel body's: row `n` of the result is `net` of row `n` of the points.
-/
import proofs.«147997_j8650064134364_2_alg».proof.Proof.Gen.ReferenceIdeal.Read
import proofs.«147997_j8650064134364_2_alg».proof.Proof.SirenSpec

open scoped BigOperators

noncomputable section

namespace Cert.ReferenceIdeal.RefValue

open Cert.ReferenceIdeal Cert.ReferenceIdeal.Gen Cert.ReferenceIdeal.Read
open Idealize.ShloMosaic Idealize.ShloMosaic.ValueIdx Cert.Rowwise Cert.Siren

variable (x0 : S262144x3.Idx → EReal) (x1 : S1x3.Idx → EReal) (x2 : S3x128.Idx → EReal)
  (x3 : S256x256.Idx → EReal) (x4 : S256.Idx → EReal) (x5 : S4x256x256.Idx → EReal)
  (x6 : S4x256.Idx → EReal) (x7 : S2x256.Idx → EReal) (x8 : S2.Idx → EReal)

/-! ## The operands at an index -/

/-- The scales broadcast over the points: entry (n, c) is scale `c`. -/
theorem s_at (n : Fin 262144) (c : Fin 3) : val_main_v0 (F := Ideal) x1 (ix2 n c) = x1 (ix2 0 c) := by
  rw [val_main_v0_apply]
  exact congrArg x1 (funext fun a => match a with | ⟨0, _⟩ => rfl | ⟨1, _⟩ => rfl)

/-- The first weight transposed: entry (k, j) is the argument's entry (j, k). -/
theorem w0_at (k j : Fin 256) : val_main_v8 (F := Ideal) x3 (ix2 k j) = x3 (ix2 j k) := by
  rw [val_main_v8_apply]
  exact congrArg x3 (funext fun a => match a with | ⟨0, _⟩ => rfl | ⟨1, _⟩ => rfl)

/-- The first bias broadcast over the rows: entry (n, j) is the vector's entry `j`. -/
theorem b0_at (n : Fin 262144) (j : Fin 256) : val_main_v11 (F := Ideal) x4 (ix2 n j) = x4 (ix1 j) := by
  rw [val_main_v11_apply, val_main_v10_apply]
  exact congrArg x4 (funext fun a => match a with | ⟨0, _⟩ => rfl)

/-- Hidden weight 0 as the reference multiplies by it (cut from the stack, its unit axis dropped, transposed): entry
    (k, j) is the stack's entry (0, j, k). -/
theorem wh0_at (k j : Fin 256) : val_main_v18 (F := Ideal) x5 (ix2 k j) = x5 (ix3 0 j k) := by
  rw [val_main_v18_apply, val_main_v17_apply, val_main_v16_apply]
  refine congrArg x5 (funext fun a => Fin.ext ?_)
  match a with
  | ⟨0, _⟩ => rfl
  | ⟨1, _⟩ => show (j.val * 256 + k.val) / 256 % 256 = j.val; have := j.isLt; have := k.isLt; omega
  | ⟨2, _⟩ => show (j.val * 256 + k.val) % 256 = k.val; have := k.isLt; omega

/-- Hidden bias 0 as the reference adds it (cut from the stack, flattened, broadcast over the rows): entry (n, j) is
    the stack's entry (0, j). -/
theorem bh0_at (n : Fin 262144) (j : Fin 256) : val_main_v23 (F := Ideal) x6 (ix2 n j) = x6 (ix2 0 j) := by
  rw [val_main_v23_apply, val_main_v22_apply, val_main_v21_apply, val_main_v20_apply]
  refine congrArg x6 (funext fun a => Fin.ext ?_)
  match a with
  | ⟨0, _⟩ => rfl
  | ⟨1, _⟩ => show j.val % 256 = j.val; have := j.isLt; omega

/-- Hidden weight 1 as the reference multiplies by it (cut from the stack, its unit axis dropped, transposed): entry
    (k, j) is the stack's entry (1, j, k). -/
theorem wh1_at (k j : Fin 256) : val_main_v28 (F := Ideal) x5 (ix2 k j) = x5 (ix3 1 j k) := by
  rw [val_main_v28_apply, val_main_v27_apply, val_main_v26_apply]
  refine congrArg x5 (funext fun a => Fin.ext ?_)
  match a with
  | ⟨0, _⟩ => rfl
  | ⟨1, _⟩ => show (j.val * 256 + k.val) / 256 % 256 = j.val; have := j.isLt; have := k.isLt; omega
  | ⟨2, _⟩ => show (j.val * 256 + k.val) % 256 = k.val; have := k.isLt; omega

/-- Hidden bias 1 as the reference adds it (cut from the stack, flattened, broadcast over the rows): entry (n, j) is
    the stack's entry (1, j). -/
theorem bh1_at (n : Fin 262144) (j : Fin 256) : val_main_v33 (F := Ideal) x6 (ix2 n j) = x6 (ix2 1 j) := by
  rw [val_main_v33_apply, val_main_v32_apply, val_main_v31_apply, val_main_v30_apply]
  refine congrArg x6 (funext fun a => Fin.ext ?_)
  match a with
  | ⟨0, _⟩ => rfl
  | ⟨1, _⟩ => show j.val % 256 = j.val; have := j.isLt; omega

/-- Hidden weight 2 as the reference multiplies by it (cut from the stack, its unit axis dropped, transposed): entry
    (k, j) is the stack's entry (2, j, k). -/
theorem wh2_at (k j : Fin 256) : val_main_v38 (F := Ideal) x5 (ix2 k j) = x5 (ix3 2 j k) := by
  rw [val_main_v38_apply, val_main_v37_apply, val_main_v36_apply]
  refine congrArg x5 (funext fun a => Fin.ext ?_)
  match a with
  | ⟨0, _⟩ => rfl
  | ⟨1, _⟩ => show (j.val * 256 + k.val) / 256 % 256 = j.val; have := j.isLt; have := k.isLt; omega
  | ⟨2, _⟩ => show (j.val * 256 + k.val) % 256 = k.val; have := k.isLt; omega

/-- Hidden bias 2 as the reference adds it (cut from the stack, flattened, broadcast over the rows): entry (n, j) is
    the stack's entry (2, j). -/
theorem bh2_at (n : Fin 262144) (j : Fin 256) : val_main_v43 (F := Ideal) x6 (ix2 n j) = x6 (ix2 2 j) := by
  rw [val_main_v43_apply, val_main_v42_apply, val_main_v41_apply, val_main_v40_apply]
  refine congrArg x6 (funext fun a => Fin.ext ?_)
  match a with
  | ⟨0, _⟩ => rfl
  | ⟨1, _⟩ => show j.val % 256 = j.val; have := j.isLt; omega

/-- Hidden weight 3 as the reference multiplies by it (cut from the stack, its unit axis dropped, transposed): entry
    (k, j) is the stack's entry (3, j, k). -/
theorem wh3_at (k j : Fin 256) : val_main_v48 (F := Ideal) x5 (ix2 k j) = x5 (ix3 3 j k) := by
  rw [val_main_v48_apply, val_main_v47_apply, val_main_v46_apply]
  refine congrArg x5 (funext fun a => Fin.ext ?_)
  match a with
  | ⟨0, _⟩ => rfl
  | ⟨1, _⟩ => show (j.val * 256 + k.val) / 256 % 256 = j.val; have := j.isLt; have := k.isLt; omega
  | ⟨2, _⟩ => show (j.val * 256 + k.val) % 256 = k.val; have := k.isLt; omega

/-- Hidden bias 3 as the reference adds it (cut from the stack, flattened, broadcast over the rows): entry (n, j) is
    the stack's entry (3, j). -/
theorem bh3_at (n : Fin 262144) (j : Fin 256) : val_main_v53 (F := Ideal) x6 (ix2 n j) = x6 (ix2 3 j) := by
  rw [val_main_v53_apply, val_main_v52_apply, val_main_v51_apply, val_main_v50_apply]
  refine congrArg x6 (funext fun a => Fin.ext ?_)
  match a with
  | ⟨0, _⟩ => rfl
  | ⟨1, _⟩ => show j.val % 256 = j.val; have := j.isLt; omega

/-- The last weight transposed: entry (k, o) is the argument's entry (o, k). -/
theorem wf_at (k : Fin 256) (o : Fin 2) : val_main_v56 (F := Ideal) x7 (ix2 k o) = x7 (ix2 o k) := by
  rw [val_main_v56_apply]
  exact congrArg x7 (funext fun a => match a with | ⟨0, _⟩ => rfl | ⟨1, _⟩ => rfl)

/-- The last bias broadcast over the rows: entry (n, o) is the vector's entry `o`. -/
theorem bf_at (n : Fin 262144) (o : Fin 2) : val_main_v59 (F := Ideal) x8 (ix2 n o) = x8 (ix1 o) := by
  rw [val_main_v59_apply, val_main_v58_apply]
  exact congrArg x8 (funext fun a => match a with | ⟨0, _⟩ => rfl)

/-! ## The reference's value, layer by layer -/

/-- Row `n` of the reference's result is `net` of row `n` of the points. -/
theorem ref_rows :
    RowsAre (φ := .f32) (val_main_v60 (F := Ideal) x0 x1 x2 x3 x4 x5 x6 x7 x8)
      (fun n => net c₂ ω (fun c => x0 (ix2 n c)) (fun c => x1 (ix2 0 c)) (fun c f => x2 (ix2 c f))
        (fun j k => x3 (ix2 j k)) (fun j => x4 (ix1 j)) (fun l j k => x5 (ix3 l j k)) (fun l j => x6 (ix2 l j))
        (fun o k => x7 (ix2 o k)) (fun o => x8 (ix1 o))) := by
  unfold net
  refine rows_hostDot_bias none .single ?_ (wf_at x7) (bf_at x8)
  refine rows_hostSinLayer none .single ?_ (wh3_at x5) (bh3_at x6)
  refine rows_hostSinLayer none .single ?_ (wh2_at x5) (bh2_at x6)
  refine rows_hostSinLayer none .single ?_ (wh1_at x5) (bh1_at x6)
  refine rows_hostSinLayer none .single ?_ (wh0_at x5) (bh0_at x6)
  refine rows_hostFirstLayer none .single _ _ ?_ (w0_at x3) (b0_at x4)
  refine rows_hostFeat _ _ _ ?_
  refine rows_hostProj none .single ?_ (fun c f => rfl)
  exact rows_mul (fun n c => rfl) (s_at x1)

/-- The reference's result array is `G` of the argument arrays. -/
theorem ref_eq_G : val_main_v60 (F := Ideal) x0 x1 x2 x3 x4 x5 x6 x7 x8 = G c₂ ω x0 x1 x2 x3 x4 x5 x6 x7 x8 := by
  funext i
  rw [eq_ix2 i]
  exact ref_rows x0 x1 x2 x3 x4 x5 x6 x7 x8 (i 0) (i 1)

end Cert.ReferenceIdeal.RefValue

end
-- ==== Proof.lean ====
/- The proof of `Cert.Claim` (proofs.«147997_j8650064134364_2_alg».proof.Defs).

   The kernel and the reference are one network on 262144 points of three coordinates: Fourier features of the scaled
   coordinates projected on 128 frequencies (their sines, then their cosines, times the float nearest √2), a sine layer
   scaled by the float 30, four sine layers and a last affine layer, each point independent of every other. At the ideal
   values a change of float format is the identity, a matrix product into a zero accumulator and the host's
   `dot_general` are the same sum, and the kernel's and the host's sine are one function; the two constants are the same
   words in both programs and are never evaluated. What differs is only where things sit: the kernel works on blocks of
   2048 rows and takes its weights already transposed by the host, the reference works on the whole array and
   transposes each weight right before its product. So no algebraic law is needed and the precondition is never opened:

     * Proof/SirenSpec.lean states the network on one row (`net`) and the result array `G` of the argument arrays;
     * Proof/KernelBody.lean follows the kernel body's one stored value layer by layer: its rows are `net` of the rows
       of the block of points;
     * Proof/KernelArray.lean reads each block of a grid point as entries of the argument arrays, so that what a point
       writes back is a block of rows of `G`, and the 128 blocks cover the result: the kernel's run ends with `G`;
     * Proof/RefValue.lean follows the reference's composed term the same way: it is `G`.

   The three frames are the generated ones (the reference's is its generated run with the result dropped), the ideal
   pass rewrote nothing, and the two runs end with the same `G` of arguments that agree. -/
import proofs.«147997_j8650064134364_2_alg».proof.Defs
import proofs.«147997_j8650064134364_2_alg».proof.Proof.Gen.Kernel
import proofs.«147997_j8650064134364_2_alg».proof.Proof.Gen.Kernel.Skeleton
import proofs.«147997_j8650064134364_2_alg».proof.Proof.Gen.Kernel.Launch
import proofs.«147997_j8650064134364_2_alg».proof.Proof.Gen.Kernel.Points
import proofs.«147997_j8650064134364_2_alg».proof.Proof.Gen.Kernel.Frame
import proofs.«147997_j8650064134364_2_alg».proof.Proof.Gen.KernelIdeal
import proofs.«147997_j8650064134364_2_alg».proof.Proof.Gen.KernelIdeal.Skeleton
import proofs.«147997_j8650064134364_2_alg».proof.Proof.Gen.KernelIdeal.Launch
import proofs.«147997_j8650064134364_2_alg».proof.Proof.Gen.KernelIdeal.Points
import proofs.«147997_j8650064134364_2_alg».proof.Proof.Gen.KernelIdeal.Frame
import proofs.«147997_j8650064134364_2_alg».proof.Proof.Gen.ReferenceIdeal
import proofs.«147997_j8650064134364_2_alg».proof.Proof.Gen.Pre_finite_inputs
import proofs.«147997_j8650064134364_2_alg».proof.Proof.Gen.KernelIdeal.Value
import proofs.«147997_j8650064134364_2_alg».proof.Proof.Gen.ReferenceIdeal.Run
import proofs.«147997_j8650064134364_2_alg».proof.Proof.Gen.ReferenceIdeal.Read
import proofs.«147997_j8650064134364_2_alg».proof.Proof.KernelArray
import proofs.«147997_j8650064134364_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- So does the kernel read at the ideal values. -/
theorem frame_ki : Cert.frame_KernelIdeal := fun m ρ _ => Cert.KernelIdeal.Gen.frame m ρ

/-- So does the reference: its run, with what it says of the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- From memories that agree on the arguments, the kernel's run ends with the result array at `G` of its arguments
    (KernelArray) and the reference's with its composed term of its own, which is `G` of them (RefValue): the same
    array once the agreement is rewritten. -/
theorem algebraic : Cert.algebraic_KernelIdeal_ReferenceIdeal := by
  intro m ρ m' ρ' _ hagree
  refine ⟨fun c => Cert.KernelIdeal.Array.Gm m c, Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v60_eq, Cert.ReferenceIdeal.RefValue.ref_eq_G, h0, h1, h2, h3, h4, h5, h6, h7, h8]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
